-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S800000 : Shape := ⟨1, ![800000]⟩
abbrev S800000x1 : Shape := ⟨2, ![800000, 1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_
  bcast_S_S800000x1 : S_.BroadcastsInDim S800000x1 (![] : Fin 0 → Fin S800000x1.rank)
  reducesTo_S800000x1_S_d0_1 : S800000x1.ReducesTo [0, 1] S_

variable [Facts]

def fn_part2 {F : FTy → Type} [FloatOps F] (main_arg7 : FVec F S800000 .f32) (main_arg8 : FVec F S800000x1 .f32) (main_v33 : IVec S_ 1) : IVec S_ 1 :=
  let main_v34 : FVec F S800000 .f32 := Host.absf main_arg7
  let main_cst_12 : FVec F S_ .f32 := constant S_ .f32 0x7F800000#32
  let main_v35 : FVec F S800000 .f32 := broadcastInDim S800000 ![] bcast_S_S800000 main_cst_12
  let main_v36 : IVec S800000 1 := cmpf .olt main_v34 main_v35
  let main_c_13 : IVec S_ 1 := constantI S_ 1 1#1
  let main_v37 : IVec S_ 1 := (fun x v => Host.reduce IntOp.andi x v reducesTo_S800000_S_d0 h_S_) main_v36 main_c_13
  let main_v38 : IVec S_ 1 := andi main_v33 main_v37
  let main_v39 : FVec F S800000x1 .f32 := Host.absf main_arg8
  let main_cst_14 : FVec F S_ .f32 := constant S_ .f32 0x7F800000#32
  let main_v40 : FVec F S800000x1 .f32 := broadcastInDim S800000x1 ![] bcast_S_S800000x1 main_cst_14
  let main_v41 : IVec S800000x1 1 := cmpf .olt main_v39 main_v40
  let main_c_15 : IVec S_ 1 := constantI S_ 1 1#1
  let main_v42 : IVec S_ 1 := (fun x v => Host.reduce IntOp.andi x v reducesTo_S800000x1_S_d0_1 h_S_) main_v41 main_c_15
  let main_v43 : IVec S_ 1 := andi main_v38 main_v42
  main_v43

def fn_part1 {F : FTy → Type} [FloatOps F] (main_arg4 : FVec F S128 .f32) (main_arg5 : FVec F S256x1 .f32) (main_arg6 : FVec F S1 .f32) (main_arg7 : FVec F S800000 .f32) (main_arg8 : FVec F S800000x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S50000x256 .f32) (main_arg1 : FVec F S256x128 .f32) (main_arg2 : FVec F S128 .f32) (main_arg3 : FVec F S256x128 .f32) (main_arg4 : FVec F S128 .f32) (main_arg5 : FVec F S256x1 .f32) (main_arg6 : FVec F S1 .f32) (main_arg7 : FVec F S800000 .f32) (main_arg8 : FVec F S800000x1 .f32) (main_arg9 : IVec S800000 32) (main_arg10 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_v13 main_v16
-- ==== Kernel.lean ====
abbrev S50000x256 : Shape := ⟨2, ![50000, 256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S800000 : Shape := ⟨1, ![800000]⟩
abbrev S800000x1 : Shape := ⟨2, ![800000, 1]⟩
abbrev S_ : Shape := ⟨0, ![]⟩
abbrev S50176x256 : Shape := ⟨2, ![50176, 256]⟩
abbrev S1x128 : Shape := ⟨2, ![1, 128]⟩
abbrev S128x1 : Shape := ⟨2, ![128, 1]⟩
abbrev S50176x1 : Shape := ⟨2, ![50176, 1]⟩
abbrev S1024x256 : Shape := ⟨2, ![1024, 256]⟩
abbrev S1024x1 : Shape := ⟨2, ![1024, 1]⟩
abbrev S1024x128 : Shape := ⟨2, ![1024, 128]⟩
abbrev S1024 : Shape := ⟨1, ![1024]⟩
abbrev S50000x1 : Shape := ⟨2, ![50000, 1]⟩
abbrev S50000 : Shape := ⟨1, ![50000]⟩

abbrev nBuf : Space → Nat
  | .hbm => 120
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x1, .f32⟩
  | .hbm, ⟨6, _⟩ => ⟨S1, .f32⟩
  | .hbm, ⟨7, _⟩ => ⟨S800000, .f32⟩
  | .hbm, ⟨8, _⟩ => ⟨S800000x1, .f32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S_, .f32⟩
  | .hbm, ⟨13, _⟩ => ⟨S50176x256, .f32⟩
  | .hbm, ⟨14, _⟩ => ⟨S1x128, .f32⟩
  | .hbm, ⟨15, _⟩ => ⟨S1x128, .f32⟩
  | .hbm, ⟨16, _⟩ => ⟨S128x1, .f32⟩
  | .hbm, ⟨17, _⟩ => ⟨S1x128, .f32⟩
  | .hbm, ⟨18, _⟩ => ⟨S128x1, .f32⟩
  | .hbm, ⟨19, _⟩ => ⟨S1x128, .f32⟩
  | .hbm, ⟨20, _⟩ => ⟨S50176x1, .f32⟩
  | .hbm, ⟨21, _⟩ => ⟨S50176x1, .f32⟩
  | .hbm, ⟨22, _⟩ => ⟨S50000x1, .f32⟩
  | .hbm, ⟨23, _⟩ => ⟨S50000, .f32⟩
  | .hbm, ⟨24, _⟩ => ⟨S50000x1, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S_, .f32⟩
  | .hbm, ⟨46, _⟩ => ⟨S800000, .f32⟩
  | .hbm, ⟨47, _⟩ => ⟨S800000, .f32⟩
  | .hbm, ⟨48, _⟩ => ⟨S800000, .f32⟩
  | .hbm, ⟨49, _⟩ => ⟨S_, .f32⟩
  | .hbm, ⟨50, _⟩ => ⟨S800000, .f32⟩
  | .hbm, ⟨51, _⟩ => ⟨S800000, .f32⟩
  | .hbm, ⟨52, _⟩ => ⟨S800000, .f32⟩
  | .hbm, ⟨53, _⟩ => ⟨S_, .f32⟩
  | .hbm, ⟨54, _⟩ => ⟨S800000, .f32⟩
  | .hbm, ⟨55, _⟩ => ⟨S800000, .f32⟩
  | .hbm, ⟨56, _⟩ => ⟨S800000, .f32⟩
  | .hbm, ⟨57, _⟩ => ⟨S800000, .f32⟩
  | .hbm, ⟨58, _⟩ => ⟨S800000, .f32⟩
  | .hbm, ⟨59, _⟩ => ⟨S800000, .f32⟩
  | .hbm, ⟨60, _⟩ => ⟨S800000, .f32⟩
  | .hbm, ⟨61, _⟩ => ⟨S_, .f32⟩
  | .hbm, ⟨62, _⟩ => ⟨S800000, .f32⟩
  | .hbm, ⟨63, _⟩ => ⟨S800000, .f32⟩
  | .hbm, ⟨64, _⟩ => ⟨S_, .f32⟩
  | .hbm, ⟨65, _⟩ => ⟨S800000, .f32⟩
  | .hbm, ⟨66, _⟩ => ⟨S800000, .f32⟩
  | .hbm, ⟨67, _⟩ => ⟨S_, .f32⟩
  | .hbm, ⟨68, _⟩ => ⟨S800000, .f32⟩
  | .hbm, ⟨69, _⟩ => ⟨S800000, .f32⟩
  | .hbm, ⟨70, _⟩ => ⟨S_, .f32⟩
  | .hbm, ⟨71, _⟩ => ⟨S800000, .f32⟩
  | .hbm, ⟨72, _⟩ => ⟨S800000, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S800000, .f32⟩
  | .hbm, ⟨77, _⟩ => ⟨S800000, .f32⟩
  | .hbm, ⟨78, _⟩ => ⟨S_, .f32⟩
  | .hbm, ⟨79, _⟩ => ⟨S800000, .f32⟩
  | .hbm, ⟨80, _⟩ => ⟨S800000, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .i1⟩
  | .hbm, ⟨96, _⟩ => ⟨S_, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000, .f32⟩
  | .hbm, ⟨109, _⟩ => ⟨S800000, .f32⟩
  | .hbm, ⟨110, _⟩ => ⟨S_, .i32⟩
  | .hbm, ⟨111, _⟩ => ⟨S800000, .i32⟩
  | .hbm, ⟨112, _⟩ => ⟨S800000, .i1⟩
  | .hbm, ⟨113, _⟩ => ⟨S_, .i32⟩
  | .hbm, ⟨114, _⟩ => ⟨S800000, .i32⟩
  | .hbm, ⟨115, _⟩ => ⟨S800000, .i32⟩
  | .hbm, ⟨116, _⟩ => ⟨S800000, .i32⟩
  | .hbm, ⟨117, _⟩ => ⟨S800000x1, .i32⟩
  | .hbm, ⟨118, _⟩ => ⟨S800000, .f32⟩
  | .hbm, ⟨119, _⟩ => ⟨S800000, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1x128, .f32⟩
  | .local _ .vmem, ⟨4, _⟩ => ⟨S256x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_cst_10 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_call2_v0 : Ref sig .tc := ⟨.hbm, 92, rfl⟩
abbrev main_call2_cst : Ref sig .tc := ⟨.hbm, 93, rfl⟩
abbrev main_call2_v1 : Ref sig .tc := ⟨.hbm, 94, rfl⟩
abbrev main_v58 : Ref sig .tc := ⟨.hbm, 95, rfl⟩
abbrev main_cst_14 : Ref sig .tc := ⟨.hbm, 96, rfl⟩
abbrev main_call3_v0 : Ref sig .tc := ⟨.hbm, 97, rfl⟩
abbrev main_call3_v1 : Ref sig .tc := ⟨.hbm, 98, rfl⟩
abbrev main_v59 : Ref sig .tc := ⟨.hbm, 99, rfl⟩
abbrev main_c_15 : Ref sig .tc := ⟨.hbm, 100, rfl⟩
abbrev main_v60 : Ref sig .tc := ⟨.hbm, 101, rfl⟩
abbrev main_v61 : Ref sig .tc := ⟨.hbm, 102, rfl⟩
abbrev main_c_16 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_17 : Ref sig .tc := ⟨.hbm, 110, rfl⟩
abbrev main_v68 : Ref sig .tc := ⟨.hbm, 111, rfl⟩
abbrev main_v69 : Ref sig .tc := ⟨.hbm, 112, rfl⟩
abbrev main_c_18 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S50000x256_S50176x256_01760_000 : S50000x256.Pads (![0, 0] : Fin 2 → Nat) ![176, 0] ![0, 0] S50176x256
  h_S_ : 0 < S_.numel
  shapeCasts_S128_S1x128 : S128.ShapeCasts S1x128
  slices_S256x1_S128x1_0_0 : S256x1.Slices ![0, 0] S128x1
  shapeCasts_S128x1_S1x128 : S128x1.ShapeCasts S1x128
  slices_S256x1_S128x1_128_0 : S256x1.Slices ![128, 0] S128x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  slices_S50176x1_S50000x1_0_0 : S50176x1.Slices ![0, 0] S50000x1
  shapeCasts_S50000x1_S50000 : S50000x1.ShapeCasts S50000
  bcast_S_S800000 : S_.BroadcastsInDim S800000 (![] : Fin 0 → Fin S800000.rank)
  bcast_S800000_S800000x1_0 : S800000.BroadcastsInDim S800000x1 (![0] : Fin 1 → Fin S800000x1.rank)
  shapeCasts_S1_S_ : S1.ShapeCasts S_
  shapeCasts_S800000x1_S800000 : S800000x1.ShapeCasts S800000
  bcast_S_S50000 : S_.BroadcastsInDim S50000 (![] : Fin 0 → Fin S50000.rank)
  dot_S1024x256_S256x128_S1024x128_1_0_0_1_n_n_wf : DotDims.WF S1024x256 S256x128 S1024x128 [1] [0] [0] [1] [] []
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S50176x256.size a
  hwx0_0 : ∀ i : grid0.Coords, EltTy.bits .f32 = 32 ∨ (Rect.block (s := S50176x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S50176x1.size a
  hwx0_7 : ∀ i : grid0.Coords, EltTy.bits .f32 = 32 ∨ (Rect.block (s := S50176x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S50176x1.size a
  hwx0_8 : ∀ i : grid0.Coords, EltTy.bits .f32 = 32 ∨ (Rect.block (s := S50176x1) S1024x1.size (cc0_transform_8 i) (hinb0_8 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S800000 : Shape := ⟨1, ![800000]⟩
abbrev S800000x1 : Shape := ⟨2, ![800000, 1]⟩
abbrev S_ : Shape := ⟨0, ![]⟩
abbrev S800000x256 : Shape := ⟨2, ![800000, 256]⟩
abbrev S800000x128 : Shape := ⟨2, ![800000, 128]⟩
abbrev S1x128 : Shape := ⟨2, ![1, 128]⟩
abbrev S1x1 : Shape := ⟨2, ![1, 1]⟩
abbrev S50000 : Shape := ⟨1, ![50000]⟩

abbrev nBuf : Space → Nat
  | .hbm => 120
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x1, .f32⟩
  | .hbm, ⟨6, _⟩ => ⟨S1, .f32⟩
  | .hbm, ⟨7, _⟩ => ⟨S800000, .f32⟩
  | .hbm, ⟨8, _⟩ => ⟨S800000x1, .f32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S800000x128, .f32⟩
  | .hbm, ⟨21, _⟩ => ⟨S1x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S800000x128, .f32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x256, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S800000x256, .f32⟩
  | .hbm, ⟨44, _⟩ => ⟨S800000x1, .f32⟩
  | .hbm, ⟨45, _⟩ => ⟨S1x1, .f32⟩
  | .hbm, ⟨46, _⟩ => ⟨S800000x1, .f32⟩
  | .hbm, ⟨47, _⟩ => ⟨S800000x1, .f32⟩
  | .hbm, ⟨48, _⟩ => ⟨S_, .f32⟩
  | .hbm, ⟨49, _⟩ => ⟨S800000x1, .f32⟩
  | .hbm, ⟨50, _⟩ => ⟨S800000x1, .f32⟩
  | .hbm, ⟨51, _⟩ => ⟨S800000x1, .f32⟩
  | .hbm, ⟨52, _⟩ => ⟨S_, .f32⟩
  | .hbm, ⟨53, _⟩ => ⟨S800000x1, .f32⟩
  | .hbm, ⟨54, _⟩ => ⟨S800000x1, .f32⟩
  | .hbm, ⟨55, _⟩ => ⟨S800000x1, .f32⟩
  | .hbm, ⟨56, _⟩ => ⟨S800000x1, .f32⟩
  | .hbm, ⟨57, _⟩ => ⟨S800000x1, .f32⟩
  | .hbm, ⟨58, _⟩ => ⟨S800000x1, .f32⟩
  | .hbm, ⟨59, _⟩ => ⟨S800000x1, .f32⟩
  | .hbm, ⟨60, _⟩ => ⟨S_, .f32⟩
  | .hbm, ⟨61, _⟩ => ⟨S800000x1, .f32⟩
  | .hbm, ⟨62, _⟩ => ⟨S800000x1, .f32⟩
  | .hbm, ⟨63, _⟩ => ⟨S_, .f32⟩
  | .hbm, ⟨64, _⟩ => ⟨S800000x1, .f32⟩
  | .hbm, ⟨65, _⟩ => ⟨S800000x1, .f32⟩
  | .hbm, ⟨66, _⟩ => ⟨S_, .f32⟩
  | .hbm, ⟨67, _⟩ => ⟨S800000x1, .f32⟩
  | .hbm, ⟨68, _⟩ => ⟨S800000x1, .f32⟩
  | .hbm, ⟨69, _⟩ => ⟨S_, .f32⟩
  | .hbm, ⟨70, _⟩ => ⟨S800000x1, .f32⟩
  | .hbm, ⟨71, _⟩ => ⟨S800000x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S800000x1, .f32⟩
  | .hbm, ⟨76, _⟩ => ⟨S800000x1, .f32⟩
  | .hbm, ⟨77, _⟩ => ⟨S_, .f32⟩
  | .hbm, ⟨78, _⟩ => ⟨S800000x1, .f32⟩
  | .hbm, ⟨79, _⟩ => ⟨S800000x1, .f32⟩
  | .hbm, ⟨80, _⟩ => ⟨S800000, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .i1⟩
  | .hbm, ⟨96, _⟩ => ⟨S_, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000, .f32⟩
  | .hbm, ⟨109, _⟩ => ⟨S800000, .f32⟩
  | .hbm, ⟨110, _⟩ => ⟨S_, .i32⟩
  | .hbm, ⟨111, _⟩ => ⟨S800000, .i32⟩
  | .hbm, ⟨112, _⟩ => ⟨S800000, .i1⟩
  | .hbm, ⟨113, _⟩ => ⟨S_, .i32⟩
  | .hbm, ⟨114, _⟩ => ⟨S800000, .i32⟩
  | .hbm, ⟨115, _⟩ => ⟨S800000, .i32⟩
  | .hbm, ⟨116, _⟩ => ⟨S800000, .i32⟩
  | .hbm, ⟨117, _⟩ => ⟨S800000x1, .i32⟩
  | .hbm, ⟨118, _⟩ => ⟨S800000, .f32⟩
  | .hbm, ⟨119, _⟩ => ⟨S800000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_cst : Ref sig .tc := ⟨.hbm, 24, rfl⟩
abbrev main_call0_v0 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_cst : Ref sig .tc := ⟨.hbm, 40, rfl⟩
abbrev main_call1_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_call3_v0 : Ref sig .tc := ⟨.hbm, 92, rfl⟩
abbrev main_call3_cst : Ref sig .tc := ⟨.hbm, 93, rfl⟩
abbrev main_call3_v1 : Ref sig .tc := ⟨.hbm, 94, rfl⟩
abbrev main_v57 : Ref sig .tc := ⟨.hbm, 95, rfl⟩
abbrev main_cst_13 : Ref sig .tc := ⟨.hbm, 96, rfl⟩
abbrev main_call4_v0 : Ref sig .tc := ⟨.hbm, 97, rfl⟩
abbrev main_call4_v1 : Ref sig .tc := ⟨.hbm, 98, rfl⟩
abbrev main_v58 : Ref sig .tc := ⟨.hbm, 99, rfl⟩
abbrev main_c_14 : Ref sig .tc := ⟨.hbm, 100, rfl⟩
abbrev main_v59 : Ref sig .tc := ⟨.hbm, 101, rfl⟩
abbrev main_v60 : Ref sig .tc := ⟨.hbm, 102, rfl⟩
abbrev main_c_15 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_16 : Ref sig .tc := ⟨.hbm, 110, rfl⟩
abbrev main_v67 : Ref sig .tc := ⟨.hbm, 111, rfl⟩
abbrev main_v68 : Ref sig .tc := ⟨.hbm, 112, rfl⟩
abbrev main_c_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  bcast_S_S50000 : S_.BroadcastsInDim S50000 (![] : Fin 0 → Fin S50000.rank)
  gather_S50000x256_S800000x1_S800000x256_1_0_n_n_0_1_1256_wf : GatherDims.WF S50000x256 S800000x1 S800000x256 [1] [0] [] [0] [] 1 ![1, 256]
  dot_S800000x256_S256x128_S800000x128_1_0_0_1_n_n_wf : DotDims.WF S800000x256 S256x128 S800000x128 [1] [0] [0] [1] [] []
  dot_S800000x256_S256x1_S800000x1_1_0_0_1_n_n_wf : DotDims.WF S800000x256 S256x1 S800000x1 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf

class Facts : Prop extends Facts₀ where

variable [Facts]
-- ==== Proof.KernelBody.lean ====
/-
  The kernel body at one grid point, as a triple of the program logic.

  At a point the body reads seven staged blocks — 1024 feature rows, the two 256×128 weight matrices, the two
  bias rows and the two halves of the attention column laid out as rows — and overwrites the two staged 1024×1
  output columns, each in ONE store covering the whole buffer.  So after the body the inputs' buffers hold what
  they held, and each output's buffer holds the stored value: the node scores of the 1024 rows against one weight
  matrix, one bias and one half of the attention column.  (The body also loads each output buffer once before
  overwriting it; the loaded value is used nowhere.)
-/
import proofs.«107547_j54185307407141_2_alg».proof.Proof.Gen.Kernel.Launch
import proofs.«107547_j54185307407141_2_alg».proof.Proof.Gen.Kernel.Skeleton
import proofs.«107547_j54185307407141_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each the whole of its buffer -/

abbrev rX : Rect S1024x256 := Rect.unit (s := S1024x256) ![0, 0] S1024x256.size inb_S1024x256_S1024x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rO : Rect S1024x1 := Rect.unit (s := S1024x1) ![0, 0] S1024x1.size inb_S1024x1_S1024x1_0_0

/-! ## What the body leaves in each output buffer -/

/-- The first output column after the body: its one store, over the feature rows, the first weight matrix, the
    first bias row and the first half of the attention column. -/
def outNb (x0 : Vec F S1024x256 .f32) (x1 : Vec F S256x128 .f32) (x2 : Vec F S1x128 .f32) (x5 : Vec F S1x128 .f32) :
    Vec F S1024x1 .f32 :=
  View.canon [⟨rO, k0_pay2 (View.ld x0 rX) (View.ld x1 rW) (View.ld x2 rB) (View.ld x5 rB)⟩]

/-- The second output column after the body: the same with the second weight matrix, bias row and half column. -/
def outSelf (x0 : Vec F S1024x256 .f32) (x3 : Vec F S256x128 .f32) (x4 : Vec F S1x128 .f32) (x6 : Vec F S1x128 .f32) :
    Vec F S1024x1 .f32 :=
  View.canon [⟨rO, k0_pay3 (View.ld x0 rX) (View.ld x3 rW) (View.ld x4 rB) (View.ld x6 rB)⟩]

/-- One store of the whole buffer covers it. -/
theorem coverO (p0 : Vec F S1024x1 .f32) (y : S1024x1.Idx) :
    ∃ pc ∈ ([⟨rO, p0⟩] : List (View.Piece (Elt F) S1024x1 .f32)), y ∈ pc.1.set :=
  View.cover_of_tiled [⟨rO, p0⟩] S1024x1.size (by rfl) y

/-! ## The body's triple -/

set_option maxHeartbeats 1000000 in
/-- On whole staging buffers, the seven inputs' at contents `x0 … x6` and the two outputs' at anything, the body runs to
    its continuation with the inputs' buffers unchanged and the outputs' at `outNb` and `outSelf` of the inputs. -/
theorem sound_kernel (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1024x1 .f32) (harg8 : arg8.IsWhole)
    (arg9 : Memref sig .tc .vmem S1024x1 .f32) (harg9 : arg9.IsWhole)
    (x0 : Vec F S1024x256 .f32) (x1 : Vec F S256x128 .f32) (x2 : Vec F S1x128 .f32) (x3 : Vec F S256x128 .f32)
    (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outNb x0 x1 x2 x5)
            ∗ owns (c : Thread nD τ) arg9 fullShare (outSelf x0 x3 x4 x6)) -∗ K ⟨⟩))
      ⊢ wp frame (wpE (defs₀ (F := F)) Variants.none c none) E
          (cc0__node_feat_kernel i arg1 harg1 arg2 harg2 arg3 harg3 arg4 harg4 arg5 harg5 arg6 harg6 arg7 harg7 arg8 harg8 arg9 harg9) K := by
  simp only [cc0__node_feat_kernel_eq_skeleton]; unfold cc0__node_feat_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (coverO _)
  iexists _; isplitr
  swap; · iexact H8
  ipureintro
  try dsimp only
  exact View.read_writes_eq_canon _ _ _ (coverO _)

end Cert.Kernel.Body

end
-- ==== Proof.KernelMain.lean ====
/-
  The host program around the kernel region.

  The program is: nine host operations (the feature matrix padded with zero rows to 49 blocks of 1024, the two bias
  vectors and the two halves of the attention column reshaped to rows), the kernel region, and then ninety-eight host
  operations that read the region's two result columns.  Here: what each buffer holds when the region is entered
  (`V`), that the program is those three stretches in that order (`hmain`), and the three facts the run needs
  about the later operations — they touch only unscoped buffers, allocate nothing, and none of them writes an array
  the region stages — together with: no host operation, before or after the region, writes an argument array.
-/
import proofs.«107547_j54185307407141_2_alg».proof.Proof.Gen.Kernel.Launch
import proofs.«107547_j54185307407141_2_alg».proof.Proof.Gen.Kernel.Skeleton
import proofs.«107547_j54185307407141_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Main

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The stretches of host operations before the region, and after it. -/
abbrev preOps : List (List (HloOp τ sig (Elt F))) := [hostOps0, hostOps0_1, hostOps0_2]
abbrev postOps : List (List (HloOp τ sig (Elt F))) := [hostOps1, hostOps1_1, hostOps1_2, hostOps1_3, hostOps1_4, hostOps1_5, hostOps1_6]

/-- Core `c`'s buffer contents when the region is entered: the launch contents after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-! ## No host operation allocates -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## The program is: the earlier stretches, the region, the later stretches -/

theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps (F := F)).map StableHlo.seq)) :=
  Pipeline.hmain_around cfgs 0 defs₀ 𝒱₀ m main preOps postOps (by simp only [List.Forall]; exact ⟨hostOps0_sub, hostOps0_1_sub, hostOps0_2_sub⟩)
    (by simp only [List.Forall]; exact ⟨hostOps0_fresh, hostOps0_1_fresh, hostOps0_2_fresh⟩) main_chain

/-! ## The later operations: unscoped buffers only, nothing allocated, no staged array written -/

theorem sfx_sub : ∀ ops ∈ (postOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

theorem sfx_fresh : ∀ ops ∈ (postOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- An operation writes only its own result buffer, and no result buffer of a later operation is an array the region stages. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ (postOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-! ## No host operation writes an argument array -/

/-- A reference that no operation of a list of stretches writes keeps its contents through them. -/
theorem after_keeps (opss : List (List (HloOp τ sig (Elt F)))) (ν : Valuation τ sig (Elt F)) (b : Ref sig .tc)
    (h : ∀ ops ∈ opss, ∀ op ∈ ops, Proc.devRef .tc b ∉ op.writes) :
    StableHlo.after opss.flatten ν (Proc.devRef .tc b) = ν (Proc.devRef .tc b) :=
  StableHlo.after_of_forall_not_mem (b := Proc.devRef .tc b) _ _ (fun op hop => by
    obtain ⟨ops, hops, hop'⟩ := List.mem_flatten.mp hop
    exact h ops hops op hop')

theorem hostOps0_args : (hostOps0 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps0, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps0_1_args : (hostOps0_1 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps0_1, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps0_2_args : (hostOps0_2 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps0_2, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_args : (hostOps1 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_args : (hostOps1_1 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_1, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_args : (hostOps1_2 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_2, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_args : (hostOps1_3 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_3, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_args : (hostOps1_4 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_4, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_args : (hostOps1_5 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_5, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_args : (hostOps1_6 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_6, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem pre_args : ∀ ops ∈ (preOps : List (List (HloOp τ sig (Elt F)))), ∀ op ∈ ops, ∀ b ∈ ([main_arg0, main_arg1, main_arg2, main_arg3, main_arg4, main_arg5, main_arg6, main_arg7, main_arg8, main_arg9, main_arg10] : List (Ref sig .tc)), Proc.devRef .tc b ∉ op.writes := by
  intro ops hops op hop
  simp only [List.mem_cons, List.mem_nil_iff, or_false] at hops
  rcases hops with rfl | rfl | rfl
  · exact (List.forall_iff_forall_mem.mp hostOps0_args) op hop
  · exact (List.forall_iff_forall_mem.mp hostOps0_1_args) op hop
  · exact (List.forall_iff_forall_mem.mp hostOps0_2_args) op hop

theorem post_args : ∀ ops ∈ (postOps : List (List (HloOp τ sig (Elt F)))), ∀ op ∈ ops, ∀ b ∈ ([main_arg0, main_arg1, main_arg2, main_arg3, main_arg4, main_arg5, main_arg6, main_arg7, main_arg8, main_arg9, main_arg10] : List (Ref sig .tc)), Proc.devRef .tc b ∉ op.writes := by
  intro ops hops op hop
  simp only [List.mem_cons, List.mem_nil_iff, or_false] at hops
  rcases hops with rfl | rfl | rfl | rfl | rfl | rfl | rfl
  · exact (List.forall_iff_forall_mem.mp hostOps1_args) op hop
  · exact (List.forall_iff_forall_mem.mp hostOps1_1_args) op hop
  · exact (List.forall_iff_forall_mem.mp hostOps1_2_args) op hop
  · exact (List.forall_iff_forall_mem.mp hostOps1_3_args) op hop
  · exact (List.forall_iff_forall_mem.mp hostOps1_4_args) op hop
  · exact (List.forall_iff_forall_mem.mp hostOps1_5_args) op hop
  · exact (List.forall_iff_forall_mem.mp hostOps1_6_args) op hop

/-- The region finds every argument array as launched. -/
theorem V_arg (c : Dev nD) (b : Ref sig .tc) (hb : b ∈ ([main_arg0, main_arg1, main_arg2, main_arg3, main_arg4, main_arg5, main_arg6, main_arg7, main_arg8, main_arg9, main_arg10] : List (Ref sig .tc))) :
    V m c b = m ((c : Thread nD τ).loc b) :=
  after_keeps preOps _ b (fun ops hops op hop => pre_args ops hops op hop b hb)

end Cert.Kernel.Main

end
-- ==== Proof.KernelFrame.lean ====
/-
  The run of the whole program: the kernel region launched at its 49 grid points between the host operations
  before it and after it.

  The proof data say what every staging buffer holds after the body at a point: an input's buffer its block of
  the array as the region found it, the two outputs' buffers the body's two stored columns over the point's input
  blocks.  With the body's triple at a generic point this gives the library's run of the region; the operations
  after the region then run over the arrays the region leaves.  Read at the argument arrays the run's post is the
  frame: no argument array changes.  Read at the result it names the program's value: the later operations folded
  over the region-entry contents with the staged arrays replaced by what the region left in them.
-/
import proofs.«107547_j54185307407141_2_alg».proof.Proof.KernelBody
import proofs.«107547_j54185307407141_2_alg».proof.Proof.KernelMain

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body Cert.Kernel.Main

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After the body at point `t`: each input's buffer at its block, the outputs' at the body's stored columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outNb (iblk m c 0 t) (iblk m c 1 t) (iblk m c 2 t) (iblk m c 5 t)
    | ⟨8, _⟩ => outSelf (iblk m c 0 t) (iblk m c 3 t) (iblk m c 4 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outNb (iblk m c 0 t) (iblk m c 1 t) (iblk m c 2 t) (iblk m c 5 t) := by dsimp only [dats]
theorem after8 (c : Dev nD) (t : Fin cfg0.N) : (dats m 0 c).after 8 t = outSelf (iblk m c 0 t) (iblk m c 3 t) (iblk m c 4 t) (iblk m c 6 t) := by dsimp only [dats]

/-- Input window 0's current staging buffer holds its block at every point, fetched there or not (a window not
    fetched at a point has not moved since it was). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's current staging buffer holds its block at every point, fetched there or not (a window not
    fetched at a point has not moved since it was). -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's current staging buffer holds its block at every point, fetched there or not (a window not
    fetched at a point has not moved since it was). -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's current staging buffer holds its block at every point, fetched there or not (a window not
    fetched at a point has not moved since it was). -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's current staging buffer holds its block at every point, fetched there or not (a window not
    fetched at a point has not moved since it was). -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's current staging buffer holds its block at every point, fetched there or not (a window not
    fetched at a point has not moved since it was). -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-- Input window 6's current staging buffer holds its block at every point, fetched there or not (a window not
    fetched at a point has not moved since it was). -/
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, faulting nowhere; every staged array ends at what the
    proof data compute, every other unscoped buffer as the operations after the region leave it. -/
theorem run_main : θ_run defs (onTc (τ := τ) (main (F := F))) (s₀ m ρ)
    (Pipeline.FramePost cfgs (dats m) 0 (Pipeline.afterTail₀ cfgs (dats m) 0 (V0 m) (postOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- No operation after the region writes an argument array, and no window stages one: it ends as launched. -/
theorem tail_arg (c : Dev nD) (b : Ref sig .tc) (hb : b ∈ ([main_arg0, main_arg1, main_arg2, main_arg3, main_arg4, main_arg5, main_arg6, main_arg7, main_arg8, main_arg9, main_arg10] : List (Ref sig .tc)))
    (hne : ∀ w, Pipeline.arrRef spec0 w ≠ b) :
    Pipeline.afterTail₀ cfgs (dats m) 0 (V0 m) (postOps (F := F)) c b = m ((c : Thread nD τ).loc b) := by
  unfold Pipeline.afterTail₀
  rw [after_keeps postOps _ b (fun ops hops op hop => post_args ops hops op hop b hb),
    Pipeline.withArrays_of_ne _ c (V0 m c) _ b hne]
  exact V_arg m c b hb

/-- THE RUN, read at the result and at the argument arrays: the result holds the later operations' value over the
    arrays the region left, and the arguments are unchanged. -/
theorem run_value : θ_run defs (onTc (τ := τ) (main (F := F))) ⟨m, fun _ => 0, ρ⟩ (fun r => ∀ c : Dev nD,
      r.2.mem ((c.tc : Thread nD τ).loc main_v75) = Pipeline.afterTail₀ cfgs (dats m) 0 (V0 m) (postOps (F := F)) c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v75 (Pipeline.mem_restRefs_of main_v75 (by decide) (by decide)),
    ((h c).2 main_arg0 (Pipeline.mem_restRefs_of main_arg0 (by decide) (by decide))).trans (tail_arg m c main_arg0 (by simp) (by decide)),
    ((h c).1 1).trans ((((dats m 0 c).arrAt_in 1 rfl _).trans (A_eq m c 1)).trans (V_arg m c main_arg1 (by simp))),
    ((h c).2 main_arg2 (Pipeline.mem_restRefs_of main_arg2 (by decide) (by decide))).trans (tail_arg m c main_arg2 (by simp) (by decide)),
    ((h c).1 3).trans ((((dats m 0 c).arrAt_in 3 rfl _).trans (A_eq m c 3)).trans (V_arg m c main_arg3 (by simp))),
    ((h c).2 main_arg4 (Pipeline.mem_restRefs_of main_arg4 (by decide) (by decide))).trans (tail_arg m c main_arg4 (by simp) (by decide)),
    ((h c).2 main_arg5 (Pipeline.mem_restRefs_of main_arg5 (by decide) (by decide))).trans (tail_arg m c main_arg5 (by simp) (by decide)),
    ((h c).2 main_arg6 (Pipeline.mem_restRefs_of main_arg6 (by decide) (by decide))).trans (tail_arg m c main_arg6 (by simp) (by decide)),
    ((h c).2 main_arg7 (Pipeline.mem_restRefs_of main_arg7 (by decide) (by decide))).trans (tail_arg m c main_arg7 (by simp) (by decide)),
    ((h c).2 main_arg8 (Pipeline.mem_restRefs_of main_arg8 (by decide) (by decide))).trans (tail_arg m c main_arg8 (by simp) (by decide)),
    ((h c).2 main_arg9 (Pipeline.mem_restRefs_of main_arg9 (by decide) (by decide))).trans (tail_arg m c main_arg9 (by simp) (by decide)),
    ((h c).2 main_arg10 (Pipeline.mem_restRefs_of main_arg10 (by decide) (by decide))).trans (tail_arg m c main_arg10 (by simp) (by decide))⟩) (run_main m ρ)

end Cert.Kernel.Frame

end
-- ==== Proof.KernelIdealBody.lean ====
/-
  The kernel body at one grid point, as a triple of the program logic.

  At a point the body reads seven staged blocks — 1024 feature rows, the two 256×128 weight matrices, the two
  bias rows and the two halves of the attention column laid out as rows — and overwrites the two staged 1024×1
  output columns, each in ONE store covering the whole buffer.  So after the body the inputs' buffers hold what
  they held, and each output's buffer holds the stored value: the node scores of the 1024 rows against one weight
  matrix, one bias and one half of the attention column.  (The body also loads each output buffer once before
  overwriting it; the loaded value is used nowhere.)
-/
import proofs.«107547_j54185307407141_2_alg».proof.Proof.Gen.KernelIdeal.Launch
import proofs.«107547_j54185307407141_2_alg».proof.Proof.Gen.KernelIdeal.Skeleton
import proofs.«107547_j54185307407141_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each the whole of its buffer -/

abbrev rX : Rect S1024x256 := Rect.unit (s := S1024x256) ![0, 0] S1024x256.size inb_S1024x256_S1024x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0
abbrev rO : Rect S1024x1 := Rect.unit (s := S1024x1) ![0, 0] S1024x1.size inb_S1024x1_S1024x1_0_0

/-! ## What the body leaves in each output buffer -/

/-- The first output column after the body: its one store, over the feature rows, the first weight matrix, the
    first bias row and the first half of the attention column. -/
def outNb (x0 : Vec F S1024x256 .f32) (x1 : Vec F S256x128 .f32) (x2 : Vec F S1x128 .f32) (x5 : Vec F S1x128 .f32) :
    Vec F S1024x1 .f32 :=
  View.canon [⟨rO, k0_pay2 (View.ld x0 rX) (View.ld x1 rW) (View.ld x2 rB) (View.ld x5 rB)⟩]

/-- The second output column after the body: the same with the second weight matrix, bias row and half column. -/
def outSelf (x0 : Vec F S1024x256 .f32) (x3 : Vec F S256x128 .f32) (x4 : Vec F S1x128 .f32) (x6 : Vec F S1x128 .f32) :
    Vec F S1024x1 .f32 :=
  View.canon [⟨rO, k0_pay3 (View.ld x0 rX) (View.ld x3 rW) (View.ld x4 rB) (View.ld x6 rB)⟩]

/-- One store of the whole buffer covers it. -/
theorem coverO (p0 : Vec F S1024x1 .f32) (y : S1024x1.Idx) :
    ∃ pc ∈ ([⟨rO, p0⟩] : List (View.Piece (Elt F) S1024x1 .f32)), y ∈ pc.1.set :=
  View.cover_of_tiled [⟨rO, p0⟩] S1024x1.size (by rfl) y

/-! ## The body's triple -/

set_option maxHeartbeats 1000000 in
/-- On whole staging buffers, the seven inputs' at contents `x0 … x6` and the two outputs' at anything, the body runs to
    its continuation with the inputs' buffers unchanged and the outputs' at `outNb` and `outSelf` of the inputs. -/
theorem sound_kernel (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1024x1 .f32) (harg8 : arg8.IsWhole)
    (arg9 : Memref sig .tc .vmem S1024x1 .f32) (harg9 : arg9.IsWhole)
    (x0 : Vec F S1024x256 .f32) (x1 : Vec F S256x128 .f32) (x2 : Vec F S1x128 .f32) (x3 : Vec F S256x128 .f32)
    (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outNb x0 x1 x2 x5)
            ∗ owns (c : Thread nD τ) arg9 fullShare (outSelf x0 x3 x4 x6)) -∗ K ⟨⟩))
      ⊢ wp frame (wpE (defs₀ (F := F)) Variants.none c none) E
          (cc0__node_feat_kernel i arg1 harg1 arg2 harg2 arg3 harg3 arg4 harg4 arg5 harg5 arg6 harg6 arg7 harg7 arg8 harg8 arg9 harg9) K := by
  simp only [cc0__node_feat_kernel_eq_skeleton]; unfold cc0__node_feat_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (coverO _)
  iexists _; isplitr
  swap; · iexact H8
  ipureintro
  try dsimp only
  exact View.read_writes_eq_canon _ _ _ (coverO _)

end Cert.KernelIdeal.Body

end
-- ==== Proof.KernelIdealMain.lean ====
/-
  The host program around the kernel region.

  The program is: nine host operations (the feature matrix padded with zero rows to 49 blocks of 1024, the two bias
  vectors and the two halves of the attention column reshaped to rows), the kernel region, and then ninety-eight host
  operations that read the region's two result columns.  Here: what each buffer holds when the region is entered
  (`V`), that the program is those three stretches in that order (`hmain`), and the three facts the run needs
  about the later operations — they touch only unscoped buffers, allocate nothing, and none of them writes an array
  the region stages — together with: no host operation, before or after the region, writes an argument array.
-/
import proofs.«107547_j54185307407141_2_alg».proof.Proof.Gen.KernelIdeal.Launch
import proofs.«107547_j54185307407141_2_alg».proof.Proof.Gen.KernelIdeal.Skeleton
import proofs.«107547_j54185307407141_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The stretches of host operations before the region, and after it. -/
abbrev preOps : List (List (HloOp τ sig (Elt F))) := [hostOps0, hostOps0_1, hostOps0_2]
abbrev postOps : List (List (HloOp τ sig (Elt F))) := [hostOps1, hostOps1_1, hostOps1_2, hostOps1_3, hostOps1_4, hostOps1_5, hostOps1_6]

/-- Core `c`'s buffer contents when the region is entered: the launch contents after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-! ## No host operation allocates -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## The program is: the earlier stretches, the region, the later stretches -/

theorem hmain (𝒱₀ : Variants) : Pipeline.HMainK (Ix := Unit) (Name := ℕ) (U := UR sig nD τ) (Lvl := ℕ) cfgs 0 defs₀ 𝒱₀ m (main (F := F)) (V m)
      (fun _ => Pipeline.chain ((postOps (F := F)).map StableHlo.seq)) :=
  Pipeline.hmain_around cfgs 0 defs₀ 𝒱₀ m main preOps postOps (by simp only [List.Forall]; exact ⟨hostOps0_sub, hostOps0_1_sub, hostOps0_2_sub⟩)
    (by simp only [List.Forall]; exact ⟨hostOps0_fresh, hostOps0_1_fresh, hostOps0_2_fresh⟩) main_chain

/-! ## The later operations: unscoped buffers only, nothing allocated, no staged array written -/

theorem sfx_sub : ∀ ops ∈ (postOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

theorem sfx_fresh : ∀ ops ∈ (postOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- An operation writes only its own result buffer, and no result buffer of a later operation is an array the region stages. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ (postOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-! ## No host operation writes an argument array -/

/-- A reference that no operation of a list of stretches writes keeps its contents through them. -/
theorem after_keeps (opss : List (List (HloOp τ sig (Elt F)))) (ν : Valuation τ sig (Elt F)) (b : Ref sig .tc)
    (h : ∀ ops ∈ opss, ∀ op ∈ ops, Proc.devRef .tc b ∉ op.writes) :
    StableHlo.after opss.flatten ν (Proc.devRef .tc b) = ν (Proc.devRef .tc b) :=
  StableHlo.after_of_forall_not_mem (b := Proc.devRef .tc b) _ _ (fun op hop => by
    obtain ⟨ops, hops, hop'⟩ := List.mem_flatten.mp hop
    exact h ops hops op hop')

theorem hostOps0_args : (hostOps0 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps0, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps0_1_args : (hostOps0_1 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps0_1, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps0_2_args : (hostOps0_2 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps0_2, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_args : (hostOps1 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_args : (hostOps1_1 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_1, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_args : (hostOps1_2 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_2, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_args : (hostOps1_3 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_3, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_args : (hostOps1_4 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_4, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_args : (hostOps1_5 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_5, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_args : (hostOps1_6 : List (HloOp τ sig (Elt F))).Forall fun op => ∀ b ∈ ([main_arg0, main_arg1, main_arg2, main_arg3, main_arg4, main_arg5, main_arg6, main_arg7, main_arg8, main_arg9, main_arg10] : List (Ref sig .tc)), Proc.devRef .tc b ∉ op.writes := by
  simp only [hostOps1_6, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem pre_args : ∀ ops ∈ (preOps : List (List (HloOp τ sig (Elt F)))), ∀ op ∈ ops, ∀ b ∈ ([main_arg0, main_arg1, main_arg2, main_arg3, main_arg4, main_arg5, main_arg6, main_arg7, main_arg8, main_arg9, main_arg10] : List (Ref sig .tc)), Proc.devRef .tc b ∉ op.writes := by
  intro ops hops op hop
  simp only [List.mem_cons, List.mem_nil_iff, or_false] at hops
  rcases hops with rfl | rfl | rfl
  · exact (List.forall_iff_forall_mem.mp hostOps0_args) op hop
  · exact (List.forall_iff_forall_mem.mp hostOps0_1_args) op hop
  · exact (List.forall_iff_forall_mem.mp hostOps0_2_args) op hop

theorem post_args : ∀ ops ∈ (postOps : List (List (HloOp τ sig (Elt F)))), ∀ op ∈ ops, ∀ b ∈ ([main_arg0, main_arg1, main_arg2, main_arg3, main_arg4, main_arg5, main_arg6, main_arg7, main_arg8, main_arg9, main_arg10] : List (Ref sig .tc)), Proc.devRef .tc b ∉ op.writes := by
  intro ops hops op hop
  simp only [List.mem_cons, List.mem_nil_iff, or_false] at hops
  rcases hops with rfl | rfl | rfl | rfl | rfl | rfl | rfl
  · exact (List.forall_iff_forall_mem.mp hostOps1_args) op hop
  · exact (List.forall_iff_forall_mem.mp hostOps1_1_args) op hop
  · exact (List.forall_iff_forall_mem.mp hostOps1_2_args) op hop
  · exact (List.forall_iff_forall_mem.mp hostOps1_3_args) op hop
  · exact (List.forall_iff_forall_mem.mp hostOps1_4_args) op hop
  · exact (List.forall_iff_forall_mem.mp hostOps1_5_args) op hop
  · exact (List.forall_iff_forall_mem.mp hostOps1_6_args) op hop

/-- The region finds every argument array as launched. -/
theorem V_arg (c : Dev nD) (b : Ref sig .tc) (hb : b ∈ ([main_arg0, main_arg1, main_arg2, main_arg3, main_arg4, main_arg5, main_arg6, main_arg7, main_arg8, main_arg9, main_arg10] : List (Ref sig .tc))) :
    V m c b = m ((c : Thread nD τ).loc b) :=
  after_keeps preOps _ b (fun ops hops op hop => pre_args ops hops op hop b hb)

end Cert.KernelIdeal.Main

end
-- ==== Proof.KernelIdealFrame.lean ====
/-
  The run of the whole program: the kernel region launched at its 49 grid points between the host operations
  before it and after it.

  The proof data say what every staging buffer holds after the body at a point: an input's buffer its block of
  the array as the region found it, the two outputs' buffers the body's two stored columns over the point's input
  blocks.  With the body's triple at a generic point this gives the library's run of the region; the operations
  after the region then run over the arrays the region leaves.  Read at the argument arrays the run's post is the
  frame: no argument array changes.  Read at the result it names the program's value: the later operations folded
  over the region-entry contents with the staged arrays replaced by what the region left in them.
-/
import proofs.«107547_j54185307407141_2_alg».proof.Proof.KernelIdealBody
import proofs.«107547_j54185307407141_2_alg».proof.Proof.KernelIdealMain

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body Cert.KernelIdeal.Main

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After the body at point `t`: each input's buffer at its block, the outputs' at the body's stored columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outNb (iblk m c 0 t) (iblk m c 1 t) (iblk m c 2 t) (iblk m c 5 t)
    | ⟨8, _⟩ => outSelf (iblk m c 0 t) (iblk m c 3 t) (iblk m c 4 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outNb (iblk m c 0 t) (iblk m c 1 t) (iblk m c 2 t) (iblk m c 5 t) := by dsimp only [dats]
theorem after8 (c : Dev nD) (t : Fin cfg0.N) : (dats m 0 c).after 8 t = outSelf (iblk m c 0 t) (iblk m c 3 t) (iblk m c 4 t) (iblk m c 6 t) := by dsimp only [dats]

/-- Input window 0's current staging buffer holds its block at every point, fetched there or not (a window not
    fetched at a point has not moved since it was). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's current staging buffer holds its block at every point, fetched there or not (a window not
    fetched at a point has not moved since it was). -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's current staging buffer holds its block at every point, fetched there or not (a window not
    fetched at a point has not moved since it was). -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's current staging buffer holds its block at every point, fetched there or not (a window not
    fetched at a point has not moved since it was). -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's current staging buffer holds its block at every point, fetched there or not (a window not
    fetched at a point has not moved since it was). -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's current staging buffer holds its block at every point, fetched there or not (a window not
    fetched at a point has not moved since it was). -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-- Input window 6's current staging buffer holds its block at every point, fetched there or not (a window not
    fetched at a point has not moved since it was). -/
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, faulting nowhere; every staged array ends at what the
    proof data compute, every other unscoped buffer as the operations after the region leave it. -/
theorem run_main : θ_run defs (onTc (τ := τ) (main (F := F))) (s₀ m ρ)
    (Pipeline.FramePost cfgs (dats m) 0 (Pipeline.afterTail₀ cfgs (dats m) 0 (V0 m) (postOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := postOps) (hsub := sfx_sub) (hfresh := sfx_fresh) (hkeep := sfx_keeps)
    (hmain := hmain m Variants.none) (hA := A_eq m) (hΦ := fun _ _ => rfl)

/-- No operation after the region writes an argument array, and no window stages one: it ends as launched. -/
theorem tail_arg (c : Dev nD) (b : Ref sig .tc) (hb : b ∈ ([main_arg0, main_arg1, main_arg2, main_arg3, main_arg4, main_arg5, main_arg6, main_arg7, main_arg8, main_arg9, main_arg10] : List (Ref sig .tc)))
    (hne : ∀ w, Pipeline.arrRef spec0 w ≠ b) :
    Pipeline.afterTail₀ cfgs (dats m) 0 (V0 m) (postOps (F := F)) c b = m ((c : Thread nD τ).loc b) := by
  unfold Pipeline.afterTail₀
  rw [after_keeps postOps _ b (fun ops hops op hop => post_args ops hops op hop b hb),
    Pipeline.withArrays_of_ne _ c (V0 m c) _ b hne]
  exact V_arg m c b hb

/-- THE RUN, read at the result and at the argument arrays: the result holds the later operations' value over the
    arrays the region left, and the arguments are unchanged. -/
theorem run_value : θ_run defs (onTc (τ := τ) (main (F := F))) ⟨m, fun _ => 0, ρ⟩ (fun r => ∀ c : Dev nD,
      r.2.mem ((c.tc : Thread nD τ).loc main_v75) = Pipeline.afterTail₀ cfgs (dats m) 0 (V0 m) (postOps (F := F)) c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v75 (Pipeline.mem_restRefs_of main_v75 (by decide) (by decide)),
    ((h c).2 main_arg0 (Pipeline.mem_restRefs_of main_arg0 (by decide) (by decide))).trans (tail_arg m c main_arg0 (by simp) (by decide)),
    ((h c).1 1).trans ((((dats m 0 c).arrAt_in 1 rfl _).trans (A_eq m c 1)).trans (V_arg m c main_arg1 (by simp))),
    ((h c).2 main_arg2 (Pipeline.mem_restRefs_of main_arg2 (by decide) (by decide))).trans (tail_arg m c main_arg2 (by simp) (by decide)),
    ((h c).1 3).trans ((((dats m 0 c).arrAt_in 3 rfl _).trans (A_eq m c 3)).trans (V_arg m c main_arg3 (by simp))),
    ((h c).2 main_arg4 (Pipeline.mem_restRefs_of main_arg4 (by decide) (by decide))).trans (tail_arg m c main_arg4 (by simp) (by decide)),
    ((h c).2 main_arg5 (Pipeline.mem_restRefs_of main_arg5 (by decide) (by decide))).trans (tail_arg m c main_arg5 (by simp) (by decide)),
    ((h c).2 main_arg6 (Pipeline.mem_restRefs_of main_arg6 (by decide) (by decide))).trans (tail_arg m c main_arg6 (by simp) (by decide)),
    ((h c).2 main_arg7 (Pipeline.mem_restRefs_of main_arg7 (by decide) (by decide))).trans (tail_arg m c main_arg7 (by simp) (by decide)),
    ((h c).2 main_arg8 (Pipeline.mem_restRefs_of main_arg8 (by decide) (by decide))).trans (tail_arg m c main_arg8 (by simp) (by decide)),
    ((h c).2 main_arg9 (Pipeline.mem_restRefs_of main_arg9 (by decide) (by decide))).trans (tail_arg m c main_arg9 (by simp) (by decide)),
    ((h c).2 main_arg10 (Pipeline.mem_restRefs_of main_arg10 (by decide) (by decide))).trans (tail_arg m c main_arg10 (by simp) (by decide))⟩) (run_main m ρ)

end Cert.KernelIdeal.Frame

end
-- ==== Proof.PayValue.lean ====
import proofs.«107547_j54185307407141_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Idealize.ShloMosaic Idealize.ShloMosaic.ValueIdx
open scoped BigOperators

/-! # The two scores of a block, row by row

For a block of 1024 feature rows x, a weight matrix W, a bias row b and an attention row a, the value the body
computes at row p is  ∑ h, max (∑ d, x[p,d] * W[d,h] + b[h]) 0 * a[h]  over the extended reals: there the
narrowing of the operands to sixteen bits is the identity, the product into the zero accumulator is the sum over
the contraction axis, the bias and attention rows are repeated along the rows, the lane sum starts from the zero
word, which is 0, and the final view of the 1024 sums as a column changes no value. -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the 128 lanes of row p. -/
theorem lane_sum (src : FVec Ideal S1024x128 .f32) (h : S1024x128.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p)
      = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src ?_
  funext a
  refine Fin.ext ?_
  match a with
  | ⟨0, _⟩ => rfl
  | ⟨1, _⟩ => rfl

/-! The operands' indices of the contraction at output index (i 0, i 1) and contraction coordinate q: the left
    operand is read at (i 0, q), the right one at (q, i 1). -/

theorem lhs_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
theorem lhs_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-- The product of a block of rows with a weight matrix, into the zero accumulator, at (p, h). -/
theorem matmul_row (x : FVec Ideal S1024x256 .bf16) (w : FVec Ideal S256x128 .bf16) (p : Fin 1024) (h : Fin 128) :
    matmul (F := Ideal) dot_S1024x256_S256x128_S1024x128_1_0_0_1_n_n none x w
        (constant (F := Ideal) S1024x128 .f32 0x00000000#32) (ix2 p h)
      = ∑ d : Fin 256, x (ix2 p d) * w (ix2 d h) := by
  refine (Ideal.matmul_constant_zero_apply dot_S1024x256_S256x128_S1024x128_1_0_0_1_n_n none x w (ix2 p h)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 p h)
      ((contrEquiv1 dot_S1024x256_S256x128_S1024x128_1_0_0_1_n_n 256 rfl rfl).symm k) = ix2 p k :=
    funext fun a => Fin.ext (by
      match a with
      | ⟨0, _⟩ => exact lhs_0 _ _
      | ⟨1, _⟩ => exact (lhs_1 _ _).trans hk)
  have er : dot_S1024x256_S256x128_S1024x128_1_0_0_1_n_n.rhsIdx (ix2 p h)
      ((contrEquiv1 dot_S1024x256_S256x128_S1024x128_1_0_0_1_n_n 256 rfl rfl).symm k) = ix2 k h :=
    funext fun a => Fin.ext (by
      match a with
      | ⟨0, _⟩ => exact (rhs_0 _ _).trans hk
      | ⟨1, _⟩ => exact rhs_1 _ _)
  rw [el, er]

/-- One summand of a row's score: at lane h, relu of the row's product with column h of the weights
    plus the bias at h, times the attention weight at h. -/
theorem lane_term (v0 : Vec Ideal S1024x256 .f32) (w : Vec Ideal S256x128 .f32) (b a : Vec Ideal S1x128 .f32)
    (hx : S1024x256.ShapeCasts S1024x256) (hb : S1x128.ShapeCasts S1x128) (hbc : S1x128.Broadcasts S1024x128)
    (ht : FTy.bits .bf16 < FTy.bits .f32) (p : Fin 1024) (h : Fin 128) :
    mulf (F := Ideal)
        (maximumf
          (addf
            (matmul dot_S1024x256_S256x128_S1024x128_1_0_0_1_n_n none
              (truncf .bf16 (shapeCast S1024x256 v0 hx) ht) (truncf .bf16 w ht)
              (constant (F := Ideal) S1024x128 .f32 0x00000000#32))
            (broadcastTo S1024x128 (shapeCast S1x128 b hb) hbc))
          (broadcast S1024x128 (Scalar.ofBits (F := Ideal) .f32 0x00000000#32)))
        (broadcastTo S1024x128 (shapeCast S1x128 a hb) hbc) (ix2 p h)
      = max ((∑ d : Fin 256, v0 (ix2 p d) * w (ix2 d h)) + b (ix2 0 h)) 0 * a (ix2 0 h) := by
  refine (mulf_apply _ _ (ix2 p h)).trans ?_
  refine congrArg₂ (· * ·) ?_ ?_
  · refine (maximumf_apply _ _ (ix2 p h)).trans ?_
    refine congrArg₂ max ?_ ?_
    · refine (addf_apply _ _ (ix2 p h)).trans ?_
      refine congrArg₂ (· + ·) ?_ ?_
      · refine (matmul_row _ _ p h).trans ?_
        refine Finset.sum_congr rfl fun d _ => ?_
        show shapeCast S1024x256 v0 hx (ix2 p d) * w (ix2 d h) = _
        rw [shapeCast_self]
      · refine (broadcastTo_1b_ab_apply _ hbc p h).trans ?_
        rw [shapeCast_self]
    · exact Ideal.ofBits_zero_f32
  · refine (broadcastTo_1b_ab_apply _ hbc p h).trans ?_
    rw [shapeCast_self]

/-- The neighbour-side score of row p of a block: the sum over the 128 lanes of relu(x W + b) times the
    attention weights. -/
theorem pay2_apply (v0 : Vec Ideal S1024x256 .f32) (v3 : Vec Ideal S256x128 .f32) (v8 v21 : Vec Ideal S1x128 .f32)
    (p : Fin 1024) :
    Cert.KernelIdeal.Gen.k0_pay2 (F := Ideal) v0 v3 v8 v21 (ix2 p 0)
      = ∑ h : Fin 128, max ((∑ d : Fin 256, v0 (ix2 p d) * v3 (ix2 d h)) + v8 (ix2 0 h)) 0 * v21 (ix2 0 h) := by
  unfold Gen.k0_pay2 Gen.k0_pay1
  refine (shapeCast_a_a1_apply _ _ p 0).trans ?_
  refine (lane_sum _ _ _ _ p).trans ?_
  exact Finset.sum_congr rfl fun h _ => lane_term v0 v3 v8 v21 _ _ _ _ p h

/-- The self-side score of row p of a block: the same sum with the self weights, bias and attention weights. -/
theorem pay3_apply (v0 : Vec Ideal S1024x256 .f32) (v5 : Vec Ideal S256x128 .f32) (v13 v23 : Vec Ideal S1x128 .f32)
    (p : Fin 1024) :
    Cert.KernelIdeal.Gen.k0_pay3 (F := Ideal) v0 v5 v13 v23 (ix2 p 0)
      = ∑ h : Fin 128, max ((∑ d : Fin 256, v0 (ix2 p d) * v5 (ix2 d h)) + v13 (ix2 0 h)) 0 * v23 (ix2 0 h) := by
  unfold Gen.k0_pay3 Gen.k0_pay1
  refine (shapeCast_a_a1_apply _ _ p 0).trans ?_
  refine (lane_sum _ _ _ _ p).trans ?_
  exact Finset.sum_congr rfl fun h _ => lane_term v0 v5 v13 v23 _ _ _ _ p h

end Cert.KernelIdeal.PayValue

end
-- ==== Proof.Spec.lean ====
/-
  The edge mask as one function of the argument arrays, index by index, over the extended reals.

  A node's score against a weight matrix `W`, a bias `b` and a direction `a` is
      score n = ∑ h, max (∑ d, x[n, d] · W[d, h] + b[h]) 0 · a h,
  the projection onto `a` of the rectified affine image of the node's feature row.  An edge `e` whose end points
  are stored as the 32-bit words `ri e` and `ci e` (already wrapped: a negative word has had the node count added)
  reads the nodes `nodeIdx (ri e)` and `nodeIdx (ci e)`: the word read as a signed integer and clamped into
  `[0, 49999]`.  Its logit is the sum of the two nodes' scores (the first against the first half of the attention
  column, the second against the second half) and the attention bias; its mask is the hard-concrete gate
      clip ((1 / (1 + exp (-(log u - log (1 - u) + logit)))) · 1.6 - 0.5, 0, 1),   u = noise[e, 0] + 1e-7.
  Both programs compute this mask: one projects every node once and gathers two scalars per edge, the other
  gathers two feature rows per edge and projects the concatenated rectified images.
-/
import Idealize.ShloMosaic.PureOps.Ideal
import Idealize.ShloMosaic.Lib.ValueIdx

noncomputable section

namespace Cert.Spec

open Idealize.ShloMosaic Idealize.ShloMosaic.ValueIdx

/-- The projection onto `a` of the rectified affine image `max (x[n, :] · W + b) 0` of node `n`'s feature row. -/
def score (x : FVec Ideal ⟨2, ![50000, 256]⟩ .f32) (W : FVec Ideal ⟨2, ![256, 128]⟩ .f32) (b : FVec Ideal ⟨1, ![128]⟩ .f32)
    (a : Fin 128 → EReal) (n : Fin 50000) : EReal :=
  ∑ h : Fin 128, max ((∑ d : Fin 256, x (ix2 n d) * W (ix2 d h)) + b (ix1 h)) 0 * a h

/-- The node a (wrapped) index word names: the word as a signed integer, clamped into `[0, 49999]`. -/
def nodeIdx (w : BitVec 32) : Fin 50000 := ⟨min w.toInt.toNat (50000 - 1), by omega⟩

/-- The first half of the attention column. -/
def attLo (W_att : FVec Ideal ⟨2, ![256, 1]⟩ .f32) (h : Fin 128) : EReal := W_att (ix2 ⟨h.val, by omega⟩ 0)
/-- The second half of the attention column. -/
def attHi (W_att : FVec Ideal ⟨2, ![256, 1]⟩ .f32) (h : Fin 128) : EReal := W_att (ix2 ⟨128 + h.val, by omega⟩ 0)

/-- An edge's logit: the two end points' scores and the attention bias. -/
def logit (x : FVec Ideal ⟨2, ![50000, 256]⟩ .f32) (W_nb : FVec Ideal ⟨2, ![256, 128]⟩ .f32) (b_nb : FVec Ideal ⟨1, ![128]⟩ .f32)
    (W_self : FVec Ideal ⟨2, ![256, 128]⟩ .f32) (b_self : FVec Ideal ⟨1, ![128]⟩ .f32)
    (W_att : FVec Ideal ⟨2, ![256, 1]⟩ .f32) (b_att : FVec Ideal ⟨1, ![1]⟩ .f32)
    (ri ci : IVec ⟨1, ![800000]⟩ 32) (e : Fin 800000) : EReal :=
  score x W_nb b_nb (attLo W_att) (nodeIdx (ri (ix1 e))) + score x W_self b_self (attHi W_att) (nodeIdx (ci (ix1 e)))
    + b_att (ix1 0)

/-- The hard-concrete gate of a logit `l` at noise `v`, clipped into `[0, 1]`. -/
def gate (v l : EReal) : EReal :=
  min (Ideal.ofBits .f32 0x3F800000#32) (max (Ideal.ofBits .f32 0x00000000#32)
    (Ideal.div (Ideal.ofBits .f32 0x3F800000#32)
        (Ideal.ofBits .f32 0x3F800000#32
          + Ideal.exp (-(Ideal.log (v + Ideal.ofBits .f32 0x33D6BF95#32)
              - Ideal.log (Ideal.ofBits .f32 0x3F800000#32 - (v + Ideal.ofBits .f32 0x33D6BF95#32)) + l)))
      * Ideal.ofBits .f32 0x3FCCCCCD#32 + Ideal.ofBits .f32 0xBF000000#32))

/-- The mask of every edge. -/
def mask (x : FVec Ideal ⟨2, ![50000, 256]⟩ .f32) (W_nb : FVec Ideal ⟨2, ![256, 128]⟩ .f32) (b_nb : FVec Ideal ⟨1, ![128]⟩ .f32)
    (W_self : FVec Ideal ⟨2, ![256, 128]⟩ .f32) (b_self : FVec Ideal ⟨1, ![128]⟩ .f32)
    (W_att : FVec Ideal ⟨2, ![256, 1]⟩ .f32) (b_att : FVec Ideal ⟨1, ![1]⟩ .f32)
    (noise : FVec Ideal ⟨2, ![800000, 1]⟩ .f32) (ri ci : IVec ⟨1, ![800000]⟩ 32) : FVec Ideal ⟨1, ![800000]⟩ .f32 :=
  fun e => gate (noise (ix2 (e 0) 0)) (logit x W_nb b_nb W_self b_self W_att b_att ri ci (e 0))

end Cert.Spec

end
-- ==== Proof.KernelBlocks.lean ====
/-
  The two result columns after the region, at the nodes' rows.

  The region runs the body at 49 points; point t reads rows t * 1024 .. t * 1024 + 1023 of the feature array padded
  with zero rows to 50176, the whole of the two weight matrices, of the two bias rows and of the two attention rows,
  and writes rows t * 1024 .. t * 1024 + 1023 of the two result columns.  By the body's value at a row, what a point
  writes to a column is its block of ONE function of the arrays the region finds: at row r, the score
      ∑ h, max (∑ d, X[r, d] * W[d, h] + B[0, h]) 0 * A[0, h]
  of row r of the padded feature array X.  The 49 blocks tile the 50176 rows (row r is in the block of point r / 1024),
  so after the region each column IS that function.  Below row 50000 the padded array is the feature argument, the
  bias rows are the bias arguments viewed as rows, and the attention rows are the two halves of the attention column
  viewed as rows: there the columns hold the nodes' scores over the arguments.
-/
import proofs.«107547_j54185307407141_2_alg».proof.Proof.KernelIdealFrame
import proofs.«107547_j54185307407141_2_alg».proof.Proof.PayValue
import proofs.«107547_j54185307407141_2_alg».proof.Proof.Spec
import Idealize.ShloMosaic.Lib.StableHlo.Run
import Idealize.ShloMosaic.Lib.KernelVsHost
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Cert.KernelIdeal.Body Cert.KernelIdeal.Main Cert.KernelIdeal.Frame
open Idealize.ShloMosaic Idealize.ShloMosaic.TcCoe Idealize.SL.Sem Idealize.ShloMosaic.ValueIdx
open Idealize.ShloMosaic.StableHlo
open Idealize.ShloMosaic.Pipeline (Dat)
open scoped BigOperators

variable (m : (ℓ : Loc nD τ sig) → Buf (Elt Ideal) ℓ)

/-! ## The arrays the region finds -/

theorem V_v0 (c : Dev nD) :
    (V m c main_v0 : S50176x256.Idx → EReal)
      = pad S50176x256 ![0, 0] ![176, 0] ![0, 0] (m ((c : Thread nD τ).loc main_arg0))
          (sitofp (F := Ideal) .f32 (constantI S_ 32 0#32)) pads_S50000x256_S50176x256_01760_000 h_S_ := by
  dsimp only [V, V0]
  simp only [preOps, hostOps0, hostOps0_1, hostOps0_2, List.flatten_cons, List.flatten_nil, List.append_nil,
    List.cons_append, List.nil_append]
  after_results
  rfl

theorem V_v1 (c : Dev nD) :
    (V m c main_v1 : S1x128.Idx → EReal) = shapeCast S1x128 (m ((c : Thread nD τ).loc main_arg2)) shapeCasts_S128_S1x128 := by
  dsimp only [V, V0]
  simp only [preOps, hostOps0, hostOps0_1, hostOps0_2, List.flatten_cons, List.flatten_nil, List.append_nil,
    List.cons_append, List.nil_append]
  after_results
  rfl

theorem V_v2 (c : Dev nD) :
    (V m c main_v2 : S1x128.Idx → EReal) = shapeCast S1x128 (m ((c : Thread nD τ).loc main_arg4)) shapeCasts_S128_S1x128 := by
  dsimp only [V, V0]
  simp only [preOps, hostOps0, hostOps0_1, hostOps0_2, List.flatten_cons, List.flatten_nil, List.append_nil,
    List.cons_append, List.nil_append]
  after_results
  rfl

theorem V_v4 (c : Dev nD) :
    (V m c main_v4 : S1x128.Idx → EReal)
      = shapeCast S1x128 (extractStridedSlice S128x1 ![0, 0] (m ((c : Thread nD τ).loc main_arg5)) slices_S256x1_S128x1_0_0)
          shapeCasts_S128x1_S1x128 := by
  dsimp only [V, V0]
  simp only [preOps, hostOps0, hostOps0_1, hostOps0_2, List.flatten_cons, List.flatten_nil, List.append_nil,
    List.cons_append, List.nil_append]
  after_results
  rfl

theorem V_v6 (c : Dev nD) :
    (V m c main_v6 : S1x128.Idx → EReal)
      = shapeCast S1x128 (extractStridedSlice S128x1 ![128, 0] (m ((c : Thread nD τ).loc main_arg5)) slices_S256x1_S128x1_128_0)
          shapeCasts_S128x1_S1x128 := by
  dsimp only [V, V0]
  simp only [preOps, hostOps0, hostOps0_1, hostOps0_2, List.flatten_cons, List.flatten_nil, List.append_nil,
    List.cons_append, List.nil_append]
  after_results
  rfl

/-! ## A row's score over the arrays the region finds -/

/-- The score of row r of a feature array X against the weights W, the bias row B and the attention row A. -/
def scoreAt (X : S50176x256.Idx → EReal) (W : S256x128.Idx → EReal) (B A : S1x128.Idx → EReal) (r : Fin 50176) : EReal :=
  ∑ h : Fin 128, max ((∑ d : Fin 256, X (ix2 r d) * W (ix2 d h)) + B (ix2 0 h)) 0 * A (ix2 0 h)

/-- A block's row p scores as the array's row r when the block's row p is the array's row r and the block's
    weights, bias and attention rows are the arrays'. -/
theorem score_congr (x : S1024x256.Idx → EReal) (X : S50176x256.Idx → EReal) (w W : S256x128.Idx → EReal)
    (b B a A : S1x128.Idx → EReal) (p : Fin 1024) (r : Fin 50176)
    (hx : ∀ d : Fin 256, x (ix2 p d) = X (ix2 r d)) (hw : ∀ (d : Fin 256) (h : Fin 128), w (ix2 d h) = W (ix2 d h))
    (hb : ∀ h : Fin 128, b (ix2 0 h) = B (ix2 0 h)) (ha : ∀ h : Fin 128, a (ix2 0 h) = A (ix2 0 h)) :
    (∑ h : Fin 128, max ((∑ d : Fin 256, x (ix2 p d) * w (ix2 d h)) + b (ix2 0 h)) 0 * a (ix2 0 h))
      = scoreAt X W B A r := by
  unfold scoreAt
  refine Finset.sum_congr rfl fun h _ => ?_
  rw [hb h, ha h]
  refine congrArg (fun s => max (s + B (ix2 0 h)) 0 * A (ix2 0 h)) ?_
  exact Finset.sum_congr rfl fun d _ => by rw [hx d, hw d h]

/-! ## The blocks of a grid point -/

theorem hz : (![0, 0] : Fin 2 → Nat) = fun _ => 0 := funext fun a => by fin_cases a <;> rfl

/-- The printed index maps, decided over the grid: the feature blocks and the two result columns move with the
    point along the rows; every other window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row p of the feature block of point t is row t * 1024 + p of the feature array. -/
theorem blk0_apply (c : Dev nD) (t : Fin cfg0.N) (p : Fin 1024) (d : Fin 256) (r : Fin 50176)
    (hr : r.val = t.val * 1024 + p.val) :
    iblk m c 0 t (ix2 p d) = (V m c main_v0 : S50176x256.Idx → EReal) (ix2 r d) := by
  obtain ⟨e0, e1, -⟩ := idx_facts t
  unfold iblk
  show V m c main_v0 (((cfg0.win 0).blk t).view.emb (ix2 p d)) = _
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 256 + 1 * d.val = d.val; omega

/-- The first weight block of every point is the whole first weight matrix. -/
theorem blk1_apply (c : Dev nD) (t : Fin cfg0.N) (d : Fin 256) (h : Fin 128) :
    iblk m c 1 t (ix2 d h) = (V m c main_arg1 : S256x128.Idx → EReal) (ix2 d h) := by
  obtain ⟨-, -, f10, f11, f20, f21, f30, f31, f40, f41, f50, f51, f60, f61, -⟩ := idx_facts t
  unfold iblk
  show V m c main_arg1 (((cfg0.win 1).blk t).view.emb (ix2 d h)) = _
  refine congrArg (V m c main_arg1) (funext fun a => Fin.ext ?_)
  match a with
  | ⟨0, _⟩ => show win0_1.index t (0 : Fin 2) * 256 + 1 * d.val = d.val; omega
  | ⟨1, _⟩ => show win0_1.index t (1 : Fin 2) * 128 + 1 * h.val = h.val; omega

/-- The first bias block of every point is the whole first bias row. -/
theorem blk2_apply (c : Dev nD) (t : Fin cfg0.N) (d : Fin 1) (h : Fin 128) :
    iblk m c 2 t (ix2 d h) = (V m c main_v1 : S1x128.Idx → EReal) (ix2 d h) := by
  obtain ⟨-, -, f10, f11, f20, f21, f30, f31, f40, f41, f50, f51, f60, f61, -⟩ := idx_facts t
  unfold iblk
  show V m c main_v1 (((cfg0.win 2).blk t).view.emb (ix2 d h)) = _
  refine congrArg (V m c main_v1) (funext fun a => Fin.ext ?_)
  match a with
  | ⟨0, _⟩ => show win0_2.index t (0 : Fin 2) * 1 + 1 * d.val = d.val; omega
  | ⟨1, _⟩ => show win0_2.index t (1 : Fin 2) * 128 + 1 * h.val = h.val; omega

/-- The second weight block of every point is the whole second weight matrix. -/
theorem blk3_apply (c : Dev nD) (t : Fin cfg0.N) (d : Fin 256) (h : Fin 128) :
    iblk m c 3 t (ix2 d h) = (V m c main_arg3 : S256x128.Idx → EReal) (ix2 d h) := by
  obtain ⟨-, -, f10, f11, f20, f21, f30, f31, f40, f41, f50, f51, f60, f61, -⟩ := idx_facts t
  unfold iblk
  show V m c main_arg3 (((cfg0.win 3).blk t).view.emb (ix2 d h)) = _
  refine congrArg (V m c main_arg3) (funext fun a => Fin.ext ?_)
  match a with
  | ⟨0, _⟩ => show win0_3.index t (0 : Fin 2) * 256 + 1 * d.val = d.val; omega
  | ⟨1, _⟩ => show win0_3.index t (1 : Fin 2) * 128 + 1 * h.val = h.val; omega

/-- The second bias block of every point is the whole second bias row. -/
theorem blk4_apply (c : Dev nD) (t : Fin cfg0.N) (d : Fin 1) (h : Fin 128) :
    iblk m c 4 t (ix2 d h) = (V m c main_v2 : S1x128.Idx → EReal) (ix2 d h) := by
  obtain ⟨-, -, f10, f11, f20, f21, f30, f31, f40, f41, f50, f51, f60, f61, -⟩ := idx_facts t
  unfold iblk
  show V m c main_v2 (((cfg0.win 4).blk t).view.emb (ix2 d h)) = _
  refine congrArg (V m c main_v2) (funext fun a => Fin.ext ?_)
  match a with
  | ⟨0, _⟩ => show win0_4.index t (0 : Fin 2) * 1 + 1 * d.val = d.val; omega
  | ⟨1, _⟩ => show win0_4.index t (1 : Fin 2) * 128 + 1 * h.val = h.val; omega

/-- The first attention block of every point is the whole first attention row. -/
theorem blk5_apply (c : Dev nD) (t : Fin cfg0.N) (d : Fin 1) (h : Fin 128) :
    iblk m c 5 t (ix2 d h) = (V m c main_v4 : S1x128.Idx → EReal) (ix2 d h) := by
  obtain ⟨-, -, f10, f11, f20, f21, f30, f31, f40, f41, f50, f51, f60, f61, -⟩ := idx_facts t
  unfold iblk
  show V m c main_v4 (((cfg0.win 5).blk t).view.emb (ix2 d h)) = _
  refine congrArg (V m c main_v4) (funext fun a => Fin.ext ?_)
  match a with
  | ⟨0, _⟩ => show win0_5.index t (0 : Fin 2) * 1 + 1 * d.val = d.val; omega
  | ⟨1, _⟩ => show win0_5.index t (1 : Fin 2) * 128 + 1 * h.val = h.val; omega

/-- The second attention block of every point is the whole second attention row. -/
theorem blk6_apply (c : Dev nD) (t : Fin cfg0.N) (d : Fin 1) (h : Fin 128) :
    iblk m c 6 t (ix2 d h) = (V m c main_v6 : S1x128.Idx → EReal) (ix2 d h) := by
  obtain ⟨-, -, f10, f11, f20, f21, f30, f31, f40, f41, f50, f51, f60, f61, -⟩ := idx_facts t
  unfold iblk
  show V m c main_v6 (((cfg0.win 6).blk t).view.emb (ix2 d h)) = _
  refine congrArg (V m c main_v6) (funext fun a => Fin.ext ?_)
  match a with
  | ⟨0, _⟩ => show win0_6.index t (0 : Fin 2) * 1 + 1 * d.val = d.val; omega
  | ⟨1, _⟩ => show win0_6.index t (1 : Fin 2) * 128 + 1 * h.val = h.val; omega

/-! ## The two result columns as whole-array functions -/

/-- The first result column: at row r the score of row r of the padded feature array against the first weights. -/
def G7 (c : Dev nD) : S50176x1.Idx → EReal := fun i =>
  scoreAt (V m c main_v0) (V m c main_arg1) (V m c main_v1) (V m c main_v4) ⟨(i 0).val, idx2_lt0 i⟩

/-- The second result column: the same against the second weights. -/
def G8 (c : Dev nD) : S50176x1.Idx → EReal := fun i =>
  scoreAt (V m c main_v0) (V m c main_arg3) (V m c main_v2) (V m c main_v6) ⟨(i 0).val, idx2_lt0 i⟩

/-- What point t writes back to the first result column is its block of G7. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after7]
  unfold outNb
  rw [View.canon_unit_zero hz]
  simp only [View.ld_unit_zero (S := S1024x256) hz, View.ld_unit_zero (S := S256x128) hz, View.ld_unit_zero (S := S1x128) hz]
  funext y
  obtain ⟨p, u, rfl⟩ : ∃ (p : Fin 1024) (u : Fin 1), y = ix2 p u := ⟨y 0, y 1, @eq_ix2 1024 1 y⟩
  obtain rfl : u = 0 := Subsingleton.elim _ _
  obtain ⟨-, -, -, -, -, -, -, -, -, -, -, -, -, -, f70, f71, -⟩ := idx_facts t
  show k0_pay2 (F := Ideal) (iblk m c 0 t) (iblk m c 1 t) (iblk m c 2 t) (iblk m c 5 t) (ix2 p 0)
    = G7 m c (((cfg0.win 7).blk t).view.emb (ix2 p 0))
  refine (PayValue.pay2_apply _ _ _ _ p).trans ?_
  unfold G7
  refine score_congr _ _ _ _ _ _ _ _ p _ (fun d => blk0_apply m c t p d _ ?_) (fun d h => blk1_apply m c t d h)
    (fun h => blk2_apply m c t 0 h) (fun h => blk5_apply m c t 0 h)
  show win0_7.index t (0 : Fin 2) * 1024 + 1 * p.val = t.val * 1024 + p.val
  omega

/-- What point t writes back to the second result column is its block of G8. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after8]
  unfold outSelf
  rw [View.canon_unit_zero hz]
  simp only [View.ld_unit_zero (S := S1024x256) hz, View.ld_unit_zero (S := S256x128) hz, View.ld_unit_zero (S := S1x128) hz]
  funext y
  obtain ⟨p, u, rfl⟩ : ∃ (p : Fin 1024) (u : Fin 1), y = ix2 p u := ⟨y 0, y 1, @eq_ix2 1024 1 y⟩
  obtain rfl : u = 0 := Subsingleton.elim _ _
  obtain ⟨-, -, -, -, -, -, -, -, -, -, -, -, -, -, -, -, f80, f81⟩ := idx_facts t
  show k0_pay3 (F := Ideal) (iblk m c 0 t) (iblk m c 3 t) (iblk m c 4 t) (iblk m c 6 t) (ix2 p 0)
    = G8 m c (((cfg0.win 8).blk t).view.emb (ix2 p 0))
  refine (PayValue.pay3_apply _ _ _ _ p).trans ?_
  unfold G8
  refine score_congr _ _ _ _ _ _ _ _ p _ (fun d => blk0_apply m c t p d _ ?_) (fun d h => blk3_apply m c t d h)
    (fun h => blk4_apply m c t 0 h) (fun h => blk6_apply m c t 0 h)
  show win0_8.index t (0 : Fin 2) * 1024 + 1 * p.val = t.val * 1024 + p.val
  omega

/-! ## The blocks tile the columns -/

/-- A row of the column is in point t's block iff each coordinate is in the block's range on its axis. -/
theorem mem_blk7 (t : Fin cfg0.N) (i : S50176x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_v7_0).slice (win0_7.rect t)).set ↔ _
  rw [View.set_slice_whole, Rect.mem_set_unit]
  exact Iff.rfl

/-- Every row r of the column is in the block of point r / 1024. -/
theorem cover7 (i : S50176x1.Idx) :
    ∃ t : Fin cfg0.N, (cfg0.win 7).flush t = true ∧ i ∈ ((cfg0.win 7).blk t).view.set := by
  have hi0 : (i 0).val < 50176 := (i 0).isLt
  have hi1 : (i 1).val < 1 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, -, -, -, -, -, -, -, -, -, -, g0, g1, -⟩ := idx_facts t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 1 ≤ (i 1).val ∧ (i 1).val < win0_7.index t (1 : Fin 2) * 1 + 1
    omega

/-- A row of the column is in point t's block iff each coordinate is in the block's range on its axis. -/
theorem mem_blk8 (t : Fin cfg0.N) (i : S50176x1.Idx) :
    i ∈ ((cfg0.win 8).blk t).view.set ↔ ∀ a : Fin 2, win0_8.index t a * S1024x1.size a ≤ (i a).val
      ∧ (i a).val < win0_8.index t a * S1024x1.size a + S1024x1.size a := by
  show i ∈ ((View.whole main_v7_1).slice (win0_8.rect t)).set ↔ _
  rw [View.set_slice_whole, Rect.mem_set_unit]
  exact Iff.rfl

/-- Every row r of the column is in the block of point r / 1024. -/
theorem cover8 (i : S50176x1.Idx) :
    ∃ t : Fin cfg0.N, (cfg0.win 8).flush t = true ∧ i ∈ ((cfg0.win 8).blk t).view.set := by
  have hi0 : (i 0).val < 50176 := (i 0).isLt
  have hi1 : (i 1).val < 1 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, -, -, -, -, -, -, -, -, -, -, -, -, g0, g1⟩ := idx_facts t
  refine ⟨t, flush0_8 t, ?_⟩
  rw [mem_blk8]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 1 ≤ (i 1).val ∧ (i 1).val < win0_8.index t (1 : Fin 2) * 1 + 1
    omega

/-- After the region the first result column is G7. -/
theorem arr7 (c : Dev nD) : (dats m 0 c).arrAt 7 cfg0.N = G7 m c :=
  (dats m 0 c).arrAt_eq_of_cover 7 (G7 m c) (fun t _ => flushed7_eq m c t) cover7

/-- After the region the second result column is G8. -/
theorem arr8 (c : Dev nD) : (dats m 0 c).arrAt 8 cfg0.N = G8 m c :=
  (dats m 0 c).arrAt_eq_of_cover 8 (G8 m c) (fun t _ => flushed8_eq m c t) cover8

/-! ## The arrays the region finds, read at an index -/

/-- A column [a, 1] viewed as a row [1, a] reads, at (u, i), the column at (i, v). -/
theorem shapeCast_a1_1a_apply {α : Type} {a : ℕ} (x : (⟨2, ![a, 1]⟩ : Shape).Idx → α)
    (h : (⟨2, ![a, 1]⟩ : Shape).ShapeCasts ⟨2, ![1, a]⟩) (u v : Fin 1) (i : Fin a) :
    shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.zero_mul, Nat.zero_add, Nat.mul_one, Nat.add_zero])

/-- Below row 50000 the padded feature array is the feature argument. -/
theorem V_v0_apply (c : Dev nD) (n : Fin 50000) (d : Fin 256) (r : Fin 50176) (hr : r.val = n.val) :
    (V m c main_v0 : S50176x256.Idx → EReal) (ix2 r d) = m ((c : Thread nD τ).loc main_arg0) (ix2 n d) := by
  rw [V_v0]
  refine pad_apply_of_inside _ _ _ _ _ _ _ (ix2 r d) (ix2 n d) fun a => ?_
  match a with
  | ⟨0, _⟩ => show r.val = 0 + n.val * (0 + 1); omega
  | ⟨1, _⟩ => show d.val = 0 + d.val * (0 + 1); omega

/-- The first bias row is the first bias argument. -/
theorem V_v1_apply (c : Dev nD) (h : Fin 128) :
    (V m c main_v1 : S1x128.Idx → EReal) (ix2 0 h) = m ((c : Thread nD τ).loc main_arg2) (ix1 h) := by
  rw [V_v1]
  exact shapeCast_a_1a_apply _ _ 0 h

/-- The second bias row is the second bias argument. -/
theorem V_v2_apply (c : Dev nD) (h : Fin 128) :
    (V m c main_v2 : S1x128.Idx → EReal) (ix2 0 h) = m ((c : Thread nD τ).loc main_arg4) (ix1 h) := by
  rw [V_v2]
  exact shapeCast_a_1a_apply _ _ 0 h

/-- The first attention row is the first half of the attention column. -/
theorem V_v4_apply (c : Dev nD) (h : Fin 128) :
    (V m c main_v4 : S1x128.Idx → EReal) (ix2 0 h) = Cert.Spec.attLo (m ((c : Thread nD τ).loc main_arg5)) h := by
  rw [V_v4]
  unfold Cert.Spec.attLo
  refine (shapeCast_a1_1a_apply _ _ 0 0 h).trans ?_
  exact slice2_axis0_apply 0 _ _ h 0 ⟨h.val, by omega⟩ (Nat.zero_add _).symm

/-- The second attention row is the second half of the attention column. -/
theorem V_v6_apply (c : Dev nD) (h : Fin 128) :
    (V m c main_v6 : S1x128.Idx → EReal) (ix2 0 h) = Cert.Spec.attHi (m ((c : Thread nD τ).loc main_arg5)) h := by
  rw [V_v6]
  unfold Cert.Spec.attHi
  refine (shapeCast_a1_1a_apply _ _ 0 0 h).trans ?_
  exact slice2_axis0_apply 128 _ _ h 0 ⟨128 + h.val, by omega⟩ rfl

/-- A row's score over the arrays the region finds is the node's score over the arguments, when the row is the
    node's feature row and the weights, bias and attention rows are the arguments'. -/
theorem scoreAt_eq_score (X : S50176x256.Idx → EReal) (W : S256x128.Idx → EReal) (B A : S1x128.Idx → EReal)
    (x : FVec Ideal ⟨2, ![50000, 256]⟩ .f32) (w : FVec Ideal ⟨2, ![256, 128]⟩ .f32) (b : FVec Ideal ⟨1, ![128]⟩ .f32)
    (a : Fin 128 → EReal) (r : Fin 50176) (n : Fin 50000)
    (hx : ∀ d : Fin 256, X (ix2 r d) = x (ix2 n d)) (hw : ∀ (d : Fin 256) (h : Fin 128), W (ix2 d h) = w (ix2 d h))
    (hb : ∀ h : Fin 128, B (ix2 0 h) = b (ix1 h)) (ha : ∀ h : Fin 128, A (ix2 0 h) = a h) :
    scoreAt X W B A r = Cert.Spec.score x w b a n := by
  unfold scoreAt Cert.Spec.score
  refine Finset.sum_congr rfl fun h _ => ?_
  rw [hb h, ha h]
  refine congrArg (fun s => max (s + b (ix1 h)) 0 * a h) ?_
  exact Finset.sum_congr rfl fun d _ => by rw [hx d, hw d h]

/-! ## The two result columns at the nodes' rows -/

/-- After the region, row n < 50000 of the first result column is node n's score against the first weights, the
    first bias and the first half of the attention column. -/
theorem final_nb (c : Dev nD) (n : Fin 50000) :
    (dats m 0 c).arrAt 7 cfg0.N (ix2 (⟨n.val, by omega⟩ : Fin 50176) (0 : Fin 1))
      = Cert.Spec.score (m ((c : Thread nD τ).loc main_arg0)) (m ((c : Thread nD τ).loc main_arg1))
          (m ((c : Thread nD τ).loc main_arg2)) (Cert.Spec.attLo (m ((c : Thread nD τ).loc main_arg5))) n := by
  rw [arr7]
  unfold G7
  exact scoreAt_eq_score _ _ _ _ _ _ _ _ _ n (fun d => V_v0_apply m c n d _ rfl)
    (fun d h => congrFun (V_arg m c main_arg1 (by simp)) (ix2 d h)) (fun h => V_v1_apply m c h) (fun h => V_v4_apply m c h)

/-- After the region, row n < 50000 of the second result column is node n's score against the second weights, the
    second bias and the second half of the attention column. -/
theorem final_self (c : Dev nD) (n : Fin 50000) :
    (dats m 0 c).arrAt 8 cfg0.N (ix2 (⟨n.val, by omega⟩ : Fin 50176) (0 : Fin 1))
      = Cert.Spec.score (m ((c : Thread nD τ).loc main_arg0)) (m ((c : Thread nD τ).loc main_arg3))
          (m ((c : Thread nD τ).loc main_arg4)) (Cert.Spec.attHi (m ((c : Thread nD τ).loc main_arg5))) n := by
  rw [arr8]
  unfold G8
  exact scoreAt_eq_score _ _ _ _ _ _ _ _ _ n (fun d => V_v0_apply m c n d _ rfl)
    (fun d h => congrFun (V_arg m c main_arg3 (by simp)) (ix2 d h)) (fun h => V_v2_apply m c h) (fun h => V_v6_apply m c h)

end Cert.KernelIdeal.Blocks

end
-- ==== Proof.KernelIdealTail.lean ====
/-
  What the host operations after the kernel region compute, as two functions.

  `maskK` is the edge mask from the region's two result columns (one score per padded node row): the columns cut
  back to the 50000 nodes, each gathered at the edges' wrapped end points, summed with the attention bias into the
  logit, and gated.  `postK` is everything after the mask: the masked edge values, their sums per node scattered
  by the row end point, the inverse square root of the sums (an infinite one replaced by zero), and the masked
  value of each edge scaled by that factor at both its end points.
-/
import proofs.«107547_j54185307407141_2_alg».proof.Proof.Gen.KernelIdeal
import Idealize.ShloMosaic.PureOps.Ideal

noncomputable section

namespace Cert.KernelIdeal.Tail

open Cert.KernelIdeal Cert.KernelIdeal.Gen Idealize.ShloMosaic

/-- An index word wrapped: a negative word has the node count added. -/
def wrap (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

/-- A scalar constant spread over the edges, over the nodes. -/
abbrev overEdges (b : BitVec 32) : FVec Ideal S800000 .f32 :=
  broadcastInDim S800000 ![] bcast_S_S800000 (constant (F := Ideal) S_ .f32 b)
abbrev overNodes (b : BitVec 32) : FVec Ideal S50000 .f32 :=
  broadcastInDim S50000 ![] bcast_S_S50000 (constant (F := Ideal) S_ .f32 b)

/-- A per-node vector read at the edges' (wrapped) end points. -/
abbrev atEnds (v : FVec Ideal S50000 .f32) (r : IVec S800000 32) : FVec Ideal S800000 .f32 :=
  Host.gather gather_S50000_S800000x1_S800000_n_0_n_n_0_1_1 v (broadcastInDim S800000x1 ![0] bcast_S800000_S800000x1_0 (wrap r))

/-- A padded result column cut back to the nodes. -/
abbrev nodesOf (a : FVec Ideal S50176x1 .f32) : FVec Ideal S50000 .f32 :=
  shapeCast S50000 (extractStridedSlice S50000x1 ![0, 0] a slices_S50176x1_S50000x1_0_0) shapeCasts_S50000x1_S50000

/-- The edge mask from the two padded score columns. -/
def maskK (a7 a8 : FVec Ideal S50176x1 .f32) (b_att : FVec Ideal S1 .f32) (noise : FVec Ideal S800000x1 .f32)
    (row col : IVec S800000 32) : FVec Ideal S800000 .f32 :=
  let l : FVec Ideal S800000 .f32 := addf (addf (atEnds (nodesOf a7) row) (atEnds (nodesOf a8) col))
    (broadcastInDim S800000 ![] bcast_S_S800000 (shapeCast S_ b_att shapeCasts_S1_S_))
  let u : FVec Ideal S800000 .f32 := addf (shapeCast S800000 noise shapeCasts_S800000x1_S800000) (overEdges 0x33D6BF95#32)
  let z : FVec Ideal S800000 .f32 := addf (subf (Host.log u) (Host.log (subf (overEdges 0x3F800000#32) u))) l
  let g : FVec Ideal S800000 .f32 := Host.divf (overEdges 0x3F800000#32) (addf (overEdges 0x3F800000#32) (Host.exp (Host.negf z)))
  let s : FVec Ideal S800000 .f32 := addf (mulf g (overEdges 0x3FCCCCCD#32)) (overEdges 0xBF000000#32)
  minimumf (overEdges 0x3F800000#32) (maximumf (overEdges 0x00000000#32) s)

/-- Everything after the mask. -/
def postK (mk values : FVec Ideal S800000 .f32) (row col : IVec S800000 32) : FVec Ideal S800000 .f32 :=
  let mv : FVec Ideal S800000 .f32 := mulf values mk
  let rs : FVec Ideal S50000 .f32 := addf (Host.scatterAdd scatter_S50000_S800000x1_S800000_n_0_0_1 (overNodes 0x00000000#32)
      (broadcastInDim S800000x1 ![0] bcast_S800000_S800000x1_0 row) mv) (overNodes 0x2EDBE6FF#32)
  let p : FVec Ideal S50000 .f32 := Host.powf rs (overNodes 0xBF000000#32)
  let dis : FVec Ideal S50000 .f32 := select (cmpf .oeq (Host.absf p) (overNodes 0x7F800000#32)) (overNodes 0x00000000#32) p
  mulf (mulf mv (atEnds dis row)) (atEnds dis col)

end Cert.KernelIdeal.Tail

end
-- ==== Proof.KernelMask.lean ====
/-
  The kernel program's host-side edge mask is the specification's mask.

  After the region the program holds, for each of the two affine maps, one score per padded node row.  The host cuts
  each column back to the 50000 nodes, reads it at every edge's (wrapped, clamped) end point, adds the two scalars
  and the attention bias into the logit, and applies the gate.  Read at one edge this is the specification's gate of
  the specification's logit, once the two columns are known to hold the node scores.
-/
import proofs.«107547_j54185307407141_2_alg».proof.Proof.KernelIdealTail
import proofs.«107547_j54185307407141_2_alg».proof.Proof.Spec
import Idealize.ShloMosaic.Lib.Pipeline.Value
import Idealize.ShloMosaic.Lib.ValueIdx
import Idealize.ShloMosaic.PureOps.Ideal.Laws

noncomputable section

namespace Cert.KernelIdeal.KMask

open Cert.KernelIdeal Cert.KernelIdeal.Gen Cert.KernelIdeal.Tail Idealize.ShloMosaic Idealize.ShloMosaic.ValueIdx

/-! ## The scalar gather at an index -/

/-- The gather of a per-node vector read at edge `e`: the vector at the start index `idx[e, 0]`, read as a signed
    integer and clamped into `[0, 49999]`. -/
theorem gather_node_apply {α : Type} (v : S50000.Idx → α) (idx : IVec S800000x1 32) (e : Fin 800000) :
    Host.gather gather_S50000_S800000x1_S800000_n_0_n_n_0_1_1 v idx (ix1 e)
      = v (ix1 (⟨min (idx (ix2 e (0 : Fin 1))).toInt.toNat (50000 - 1), by omega⟩ : Fin 50000)) := by
  unfold Host.gather
  congr 1
  funext a
  obtain rfl : a = 0 := Subsingleton.elim _ _
  refine Fin.ext ?_
  show gather_S50000_S800000x1_S800000_n_0_n_n_0_1_1.start (ix1 e) idx 0
      + gather_S50000_S800000x1_S800000_n_0_n_n_0_1_1.batchCoord (ix1 e) 0
      + gather_S50000_S800000x1_S800000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S50000_S800000x1_S800000_n_0_n_n_0_1_1.startIndexMap from
    List.mem_singleton.mpr rfl)]
  have hsi : gather_S50000_S800000x1_S800000_n_0_n_n_0_1_1.siIdx (ix1 e)
      ⟨List.idxOf (0 : Fin 1) gather_S50000_S800000x1_S800000_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same with the clamped start index written as the node the index word names. -/
theorem gather_node {α : Type} (v : S50000.Idx → α) (idx : IVec S800000x1 32) (e : Fin 800000)
    (w : BitVec 32) (hw : idx (ix2 e (0 : Fin 1)) = w) :
    Host.gather gather_S50000_S800000x1_S800000_n_0_n_n_0_1_1 v idx (ix1 e) = v (ix1 (Cert.Spec.nodeIdx w)) := by
  subst hw
  exact gather_node_apply v idx e

/-! ## The layout operations at an index -/

/-- The index words as a column, read at `(e, 0)`. -/
theorem column_apply (r : IVec S800000 32) (e : Fin 800000) :
    broadcastInDim S800000x1 ![0] bcast_S800000_S800000x1_0 r (ix2 e (0 : Fin 1)) = r (ix1 e) :=
  broadcastInDim_apply _ bcast_S800000_S800000x1_0 r (ix2 e (0 : Fin 1)) (ix1 e) (fun a => match a with
    | ⟨0, _⟩ => by show e.val = if (800000 : Nat) = 1 then 0 else e.val; rw [if_neg (by decide)])

/-- A per-node vector at an edge's end point. -/
theorem atEnds_apply (v : FVec Ideal S50000 .f32) (r : IVec S800000 32) (e : Fin 800000) :
    atEnds v r (ix1 e) = v (ix1 (Cert.Spec.nodeIdx (wrap r (ix1 e)))) :=
  gather_node v _ e _ (column_apply (wrap r) e)

/-- A padded column cut back to the nodes, at node `n`: the column's row `n`. -/
theorem nodesOf_apply (a : FVec Ideal S50176x1 .f32) (n : Fin 50000) :
    nodesOf a (ix1 n) = a (ix2 (⟨n.val, by omega⟩ : Fin 50176) (0 : Fin 1)) := by
  refine (shapeCast_apply _ shapeCasts_S50000x1_S50000 (ix1 n) (ix2 n (0 : Fin 1)) ?_).trans ?_
  · rw [Shape.rowMajor_val_two, Shape.rowMajor_val_one]
    show n.val * 1 + 0 = n.val
    omega
  · exact extractStridedSlice_apply _ a slices_S50176x1_S50000x1_0_0 (ix2 n (0 : Fin 1)) _ (fun c => by
      match c with
      | ⟨0, _⟩ => show n.val = 0 + n.val; omega
      | ⟨1, _⟩ => rfl)

/-- A scalar constant spread over the edges reads the extended real its word encodes. -/
theorem overEdges_apply (b : BitVec 32) (e : Fin 800000) : overEdges b (ix1 e) = Ideal.ofBits .f32 b :=
  broadcastInDim_apply _ bcast_S_S800000 _ (ix1 e) ix0 (fun c => c.elim0)

/-- The attention bias spread over the edges. -/
theorem bias_apply (b_att : FVec Ideal S1 .f32) (e : Fin 800000) :
    broadcastInDim S800000 ![] bcast_S_S800000 (shapeCast S_ b_att shapeCasts_S1_S_) (ix1 e) = b_att (ix1 (0 : Fin 1)) := by
  refine (broadcastInDim_apply _ bcast_S_S800000 _ (ix1 e) ix0 (fun c => c.elim0)).trans ?_
  refine shapeCast_apply b_att shapeCasts_S1_S_ ix0 (ix1 (0 : Fin 1)) ?_
  rw [Shape.rowMajor_val_one]
  exact (Shape.rowMajorPi_zero _ _).symm

/-- The noise column as a vector over the edges. -/
theorem noise_apply (noise : FVec Ideal S800000x1 .f32) (e : Fin 800000) :
    shapeCast S800000 noise shapeCasts_S800000x1_S800000 (ix1 e) = noise (ix2 e (0 : Fin 1)) := by
  refine shapeCast_apply noise shapeCasts_S800000x1_S800000 (ix1 e) (ix2 e (0 : Fin 1)) ?_
  rw [Shape.rowMajor_val_two, Shape.rowMajor_val_one]
  show e.val * 1 + 0 = e.val
  omega

/-! ## The host's transcendental and division operations at an index -/

section AtIndex
variable {s : Shape} {φ : FTy}
theorem hostLog_apply (x : FVec Ideal s φ) (i : s.Idx) : Host.log x i = Ideal.log (x i) := rfl
theorem hostExp_apply (x : FVec Ideal s φ) (i : s.Idx) : Host.exp x i = Ideal.exp (x i) := rfl
theorem hostNegf_apply (x : FVec Ideal s φ) (i : s.Idx) : Host.negf x i = -(x i) := rfl
theorem hostDivf_apply (x y : FVec Ideal s φ) (i : s.Idx) : Host.divf x y i = Ideal.div (x i) (y i) := rfl
end AtIndex

/-! ## The mask -/

/-- The kernel program's edge mask is the specification's mask at the wrapped index words, given that the two padded
    columns hold the node scores at the first 50000 rows. -/
theorem maskK_eq (a7 a8 : FVec Ideal S50176x1 .f32) (x0 : FVec Ideal S50000x256 .f32) (x1 : FVec Ideal S256x128 .f32)
    (x2 : FVec Ideal S128 .f32) (x3 : FVec Ideal S256x128 .f32) (x4 : FVec Ideal S128 .f32) (x5 : FVec Ideal S256x1 .f32)
    (x6 : FVec Ideal S1 .f32) (x8 : FVec Ideal S800000x1 .f32) (row col : IVec S800000 32)
    (h7 : ∀ n : Fin 50000, a7 (ix2 (⟨n.val, by omega⟩ : Fin 50176) (0 : Fin 1)) = Cert.Spec.score x0 x1 x2 (Cert.Spec.attLo x5) n)
    (h8 : ∀ n : Fin 50000, a8 (ix2 (⟨n.val, by omega⟩ : Fin 50176) (0 : Fin 1)) = Cert.Spec.score x0 x3 x4 (Cert.Spec.attHi x5) n) :
    maskK a7 a8 x6 x8 row col = Cert.Spec.mask x0 x1 x2 x3 x4 x5 x6 x8 (wrap row) (wrap col) := by
  funext i
  obtain ⟨e, rfl⟩ : ∃ e : Fin 800000, i = ix1 e := ⟨i 0, eq_ix1 i⟩
  unfold maskK
  simp only [minimumf_apply, maximumf_apply, addf_apply, subf_apply, mulf_apply, hostLog_apply, hostExp_apply,
    hostNegf_apply, hostDivf_apply, overEdges_apply, noise_apply, bias_apply, atEnds_apply, nodesOf_apply, h7, h8]
  rw [bias_apply]
  rfl

end Cert.KernelIdeal.KMask

end
-- ==== Proof.LibHostFold.lean ====
/-
  A general fact about straight lines of host operations: the contents after two lines run one after the other are
  the contents after the second, started from the contents after the first. It lets a long line be read a stretch at a
  time, each stretch at whatever contents the earlier ones left.
-/
import Idealize.ShloMosaic.Lib.StableHlo.Run

namespace Idealize.ShloMosaic.StableHlo

variable {τ : Topo} {sig : RefSig} {Val : EltTy → Type}

/-- The fold of the operations' results over a concatenation is the fold over the second part of the fold over the
    first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.KernelIdealValue.lean ====
/-
  The value of the idealized kernel program.

  The operations after the region, folded over the arrays the region left, are `postK` of `maskK` of the two result
  columns.  The columns hold the node scores at the first 50000 rows (the region's blocks tile them, and a block's
  stored column is the score of its 1024 rows), so `maskK` of them is the specification's mask, and the program's
  result is `postK` of that mask: one function of the argument arrays.
-/
import proofs.«107547_j54185307407141_2_alg».proof.Proof.KernelBlocks
import proofs.«107547_j54185307407141_2_alg».proof.Proof.KernelMask
import proofs.«107547_j54185307407141_2_alg».proof.Proof.LibHostFold
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Frame Cert.KernelIdeal.Main Cert.KernelIdeal.Tail Cert.KernelIdeal.Blocks Cert.KernelIdeal.KMask
open Idealize.ShloMosaic.StableHlo

variable (m : (ℓ : Loc nD τ sig) → Buf (Elt Ideal) ℓ) (ρ : Dev nD → PrngReg)

/-! ## The later operations, a stretch at a time

Each stretch is read over ANY contents `ν` of the buffers before it: the buffers it writes as its operations'
value of the buffers it reads, every other buffer as it was. -/

/-- A buffer no operation of a stretch writes keeps its contents through it. -/
theorem keep (ops : List (HloOp τ sig (Elt Ideal))) (refs : List (Ref sig .tc))
    (h : ops.Forall fun op => ∀ b ∈ refs, Proc.devRef .tc b ∉ op.writes) (ν : Valuation τ sig (Elt Ideal))
    (b : Ref sig .tc) (hb : b ∈ refs) : StableHlo.after ops ν (Proc.devRef .tc b) = ν (Proc.devRef .tc b) :=
  StableHlo.after_of_forall_not_mem (b := Proc.devRef .tc b) _ _ (fun op hop => List.forall_iff_forall_mem.mp h op hop b hb)

theorem keep3 : (hostOps1_3 : List (HloOp τ sig (Elt Ideal))).Forall fun op => ∀ b ∈ ([main_v50, main_v57] : List (Ref sig .tc)), Proc.devRef .tc b ∉ op.writes := by
  simp only [hostOps1_3, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keep4 : (hostOps1_4 : List (HloOp τ sig (Elt Ideal))).Forall fun op => ∀ b ∈ ([main_v50, main_v57, main_v58] : List (Ref sig .tc)), Proc.devRef .tc b ∉ op.writes := by
  simp only [hostOps1_4, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem keep5 : (hostOps1_5 : List (HloOp τ sig (Elt Ideal))).Forall fun op => ∀ b ∈ ([main_v50] : List (Ref sig .tc)), Proc.devRef .tc b ∉ op.writes := by
  simp only [hostOps1_5, List.Forall, List.mem_cons, List.mem_nil_iff, or_false, forall_eq_or_imp, forall_eq, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- The mask: the first two stretches after the region. -/
theorem mask_read (ν : Valuation τ sig (Elt Ideal)) :
    (StableHlo.after (hostOps1_1 (F := Ideal)) (StableHlo.after (hostOps1 (F := Ideal)) ν) (Proc.devRef .tc main_v49) : S800000.Idx → EReal)
      = maskK (ν (Proc.devRef .tc main_v7_0)) (ν (Proc.devRef .tc main_v7_1)) (ν (Proc.devRef .tc main_arg6)) (ν (Proc.devRef .tc main_arg8))
          (ν (Proc.devRef .tc main_arg9)) (ν (Proc.devRef .tc main_arg10)) := by
  rw [← after_append]
  simp only [hostOps1, hostOps1_1, List.append_nil, List.cons_append, List.nil_append]
  after_results_simp
  simp only [cast_eq, id]
  unfold maskK atEnds nodesOf overEdges wrap
  dsimp only
  rfl

/-- The masked values. -/
theorem masked_read (ν : Valuation τ sig (Elt Ideal)) :
    @Eq (FVec Ideal S800000 .f32) (StableHlo.after (hostOps1_2 (F := Ideal)) ν (Proc.devRef .tc main_v50))
      (mulf (ν (Proc.devRef .tc main_arg7) : FVec Ideal S800000 .f32) (ν (Proc.devRef .tc main_v49) : FVec Ideal S800000 .f32)) := by
  simp only [hostOps1_2]
  after_results_simp
  try rfl

/-- The inverse square roots of the per-node sums of the masked values. -/
theorem power_read (ν : Valuation τ sig (Elt Ideal)) :
    (StableHlo.after (hostOps1_2 (F := Ideal)) ν (Proc.devRef .tc main_v57) : S50000.Idx → EReal)
      = Host.powf (addf (Host.scatterAdd scatter_S50000_S800000x1_S800000_n_0_0_1 (overNodes 0x00000000#32)
          (broadcastInDim S800000x1 ![0] bcast_S800000_S800000x1_0 (ν (Proc.devRef .tc main_arg9) : IVec S800000 32)) (mulf (ν (Proc.devRef .tc main_arg7) : FVec Ideal S800000 .f32) (ν (Proc.devRef .tc main_v49) : FVec Ideal S800000 .f32)))
          (overNodes 0x2EDBE6FF#32)) (overNodes 0xBF000000#32) := by
  simp only [hostOps1_2]
  after_results_simp
  try rfl

/-- Which of them are infinite. -/
theorem isinf_read (ν : Valuation τ sig (Elt Ideal)) :
    (StableHlo.after (hostOps1_3 (F := Ideal)) ν (Proc.devRef .tc main_v58) : S50000.Idx → BitVec 1)
      = cmpf .oeq (Host.absf (ν (Proc.devRef .tc main_v57) : S50000.Idx → EReal)) (overNodes 0x7F800000#32) := by
  simp only [hostOps1_3]
  after_results_simp
  try rfl

/-- The infinite ones replaced by zero. -/
theorem where_read (ν : Valuation τ sig (Elt Ideal)) :
    (StableHlo.after (hostOps1_5 (F := Ideal)) (StableHlo.after (hostOps1_4 (F := Ideal)) ν) (Proc.devRef .tc main_v59) : S50000.Idx → EReal)
      = select (ν (Proc.devRef .tc main_v58) : S50000.Idx → BitVec 1) (overNodes 0x00000000#32) (ν (Proc.devRef .tc main_v57)) := by
  rw [← after_append]
  simp only [hostOps1_4, hostOps1_5, List.append_nil, List.cons_append, List.nil_append]
  after_results_simp
  try rfl

/-- The masked values scaled at both end points. -/
theorem scaled_read (ν : Valuation τ sig (Elt Ideal)) :
    (StableHlo.after (hostOps1_6 (F := Ideal)) ν (Proc.devRef .tc main_v75) : S800000.Idx → EReal)
      = mulf (mulf (ν (Proc.devRef .tc main_v50) : FVec Ideal S800000 .f32) (atEnds (ν (Proc.devRef .tc main_v59)) (ν (Proc.devRef .tc main_arg9)))) (atEnds (ν (Proc.devRef .tc main_v59)) (ν (Proc.devRef .tc main_arg10))) := by
  simp only [hostOps1_6]
  after_results_simp
  try rfl

/-- Everything after the mask, over any contents: `postK` of the mask buffer and the three arguments it reads. -/
theorem post_read (ν : Valuation τ sig (Elt Ideal)) :
    (StableHlo.after ((hostOps1_2 (F := Ideal)) ++ (hostOps1_3 ++ (hostOps1_4 ++ (hostOps1_5 ++ (hostOps1_6 ++ []))))) ν (Proc.devRef .tc main_v75) : S800000.Idx → EReal)
      = postK (ν (Proc.devRef .tc main_v49)) (ν (Proc.devRef .tc main_arg7)) (ν (Proc.devRef .tc main_arg9)) (ν (Proc.devRef .tc main_arg10)) := by
  rw [List.append_nil, after_append, after_append, after_append, after_append, scaled_read, where_read]
  have k9 : ∀ (ν' : Valuation τ sig (Elt Ideal)), StableHlo.after (hostOps1_5 (F := Ideal)) (StableHlo.after (hostOps1_4 (F := Ideal)) (StableHlo.after (hostOps1_3 (F := Ideal)) (StableHlo.after (hostOps1_2 (F := Ideal)) ν'))) (Proc.devRef .tc main_arg9) = ν' (Proc.devRef .tc main_arg9) := fun ν' => by
    rw [keep _ _ hostOps1_5_args _ main_arg9 (by simp), keep _ _ hostOps1_4_args _ main_arg9 (by simp), keep _ _ hostOps1_3_args _ main_arg9 (by simp), keep _ _ hostOps1_2_args _ main_arg9 (by simp)]
  have k10 : ∀ (ν' : Valuation τ sig (Elt Ideal)), StableHlo.after (hostOps1_5 (F := Ideal)) (StableHlo.after (hostOps1_4 (F := Ideal)) (StableHlo.after (hostOps1_3 (F := Ideal)) (StableHlo.after (hostOps1_2 (F := Ideal)) ν'))) (Proc.devRef .tc main_arg10) = ν' (Proc.devRef .tc main_arg10) := fun ν' => by
    rw [keep _ _ hostOps1_5_args _ main_arg10 (by simp), keep _ _ hostOps1_4_args _ main_arg10 (by simp), keep _ _ hostOps1_3_args _ main_arg10 (by simp), keep _ _ hostOps1_2_args _ main_arg10 (by simp)]
  rw [k9, k10, keep _ _ keep5 _ main_v50 (by simp), keep _ _ keep4 _ main_v50 (by simp), keep _ _ keep3 _ main_v50 (by simp),
    masked_read, isinf_read, keep _ _ keep3 _ main_v57 (by simp), power_read]
  rfl

set_option maxHeartbeats 2000000 in
/-- The later operations folded over what the region left: `postK` of `maskK` of the two result columns. -/
theorem tail_eq (c : Dev nD) :
    (Pipeline.afterTail₀ cfgs (dats m) 0 (V0 m) (postOps (F := Ideal)) c main_v75 : S800000.Idx → EReal)
      = postK (maskK ((dats m 0 c).arrAt 7 cfg0.N) ((dats m 0 c).arrAt 8 cfg0.N) (m ((c : Thread nD τ).loc main_arg6)) (m ((c : Thread nD τ).loc main_arg8))
          (m ((c : Thread nD τ).loc main_arg9)) (m ((c : Thread nD τ).loc main_arg10))) (m ((c : Thread nD τ).loc main_arg7)) (m ((c : Thread nD τ).loc main_arg9)) (m ((c : Thread nD τ).loc main_arg10)) := by
  unfold Pipeline.afterTail₀
  have hflat : (postOps (F := Ideal)).flatten
      = hostOps1 ++ (hostOps1_1 ++ (hostOps1_2 ++ (hostOps1_3 ++ (hostOps1_4 ++ (hostOps1_5 ++ (hostOps1_6 ++ [])))))) := rfl
  have e7 : Pipeline.withArrays (cfgs 0).spec c (V0 m c) (fun w => (dats m 0 c).arrAt w (cfgs 0).N) (Proc.devRef .tc main_v7_0) = (dats m 0 c).arrAt 7 cfg0.N :=
    Pipeline.withArrays_arr spec0 launch0.win.arr_inj c _ _ 7
  have e8 : Pipeline.withArrays (cfgs 0).spec c (V0 m c) (fun w => (dats m 0 c).arrAt w (cfgs 0).N) (Proc.devRef .tc main_v7_1) = (dats m 0 c).arrAt 8 cfg0.N :=
    Pipeline.withArrays_arr spec0 launch0.win.arr_inj c _ _ 8
  have a6 : Pipeline.withArrays (cfgs 0).spec c (V0 m c) (fun w => (dats m 0 c).arrAt w (cfgs 0).N) (Proc.devRef .tc main_arg6) = m ((c : Thread nD τ).loc main_arg6) :=
    (Pipeline.withArrays_of_ne _ c (V0 m c) _ main_arg6 (by decide)).trans (V_arg m c main_arg6 (by simp))
  have a7 : Pipeline.withArrays (cfgs 0).spec c (V0 m c) (fun w => (dats m 0 c).arrAt w (cfgs 0).N) (Proc.devRef .tc main_arg7) = m ((c : Thread nD τ).loc main_arg7) :=
    (Pipeline.withArrays_of_ne _ c (V0 m c) _ main_arg7 (by decide)).trans (V_arg m c main_arg7 (by simp))
  have a8 : Pipeline.withArrays (cfgs 0).spec c (V0 m c) (fun w => (dats m 0 c).arrAt w (cfgs 0).N) (Proc.devRef .tc main_arg8) = m ((c : Thread nD τ).loc main_arg8) :=
    (Pipeline.withArrays_of_ne _ c (V0 m c) _ main_arg8 (by decide)).trans (V_arg m c main_arg8 (by simp))
  have a9 : Pipeline.withArrays (cfgs 0).spec c (V0 m c) (fun w => (dats m 0 c).arrAt w (cfgs 0).N) (Proc.devRef .tc main_arg9) = m ((c : Thread nD τ).loc main_arg9) :=
    (Pipeline.withArrays_of_ne _ c (V0 m c) _ main_arg9 (by decide)).trans (V_arg m c main_arg9 (by simp))
  have a10 : Pipeline.withArrays (cfgs 0).spec c (V0 m c) (fun w => (dats m 0 c).arrAt w (cfgs 0).N) (Proc.devRef .tc main_arg10) = m ((c : Thread nD τ).loc main_arg10) :=
    (Pipeline.withArrays_of_ne _ c (V0 m c) _ main_arg10 (by decide)).trans (V_arg m c main_arg10 (by simp))
  rw [hflat, after_append, after_append, post_read, mask_read,
    keep _ _ hostOps1_1_args _ main_arg7 (by simp), keep _ _ hostOps1_args _ main_arg7 (by simp),
    keep _ _ hostOps1_1_args _ main_arg9 (by simp), keep _ _ hostOps1_args _ main_arg9 (by simp),
    keep _ _ hostOps1_1_args _ main_arg10 (by simp), keep _ _ hostOps1_args _ main_arg10 (by simp),
    e7, e8, a6, a7, a8, a9, a10]

/-- The program's result as one function of the argument arrays. -/
def value (c : Dev nD) : S800000.Idx → EReal :=
  postK (Cert.Spec.mask (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg8)) (wrap (m ((c : Thread nD τ).loc main_arg9))) (wrap (m ((c : Thread nD τ).loc main_arg10))))
    (m ((c : Thread nD τ).loc main_arg7)) (m ((c : Thread nD τ).loc main_arg9)) (m ((c : Thread nD τ).loc main_arg10))

theorem result_eq (c : Dev nD) :
    Pipeline.afterTail₀ cfgs (dats m) 0 (V0 m) (postOps (F := Ideal)) c main_v75 = value m c := by
  refine (tail_eq m c).trans ?_
  unfold value
  rw [maskK_eq _ _ (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg8)) (m ((c : Thread nD τ).loc main_arg9)) (m ((c : Thread nD τ).loc main_arg10)) (final_nb m c) (final_self m c)]

/-- THE RUN of the idealized kernel program: the result holds `value`, the arguments are unchanged. -/
theorem run : θ_run defs (onTc (τ := τ) (main (F := Ideal))) ⟨m, fun _ => 0, ρ⟩ (fun r => ∀ c : Dev nD,
      r.2.mem ((c.tc : Thread nD τ).loc main_v75) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (result_eq m c), (h c).2⟩) (run_value (F := Ideal) m ρ)

end Cert.KernelIdeal.KValue

end
-- ==== Proof.RefMask.lean ====
/-
  The reference's edge mask is the specification's mask.

  The reference gathers, for every edge, the feature rows of its two end points, sends each through its own rectified
  affine map, joins the two 128-wide images into one 256-wide row and projects that row onto the attention column.
  Read at one edge, the joined row's projection is a 256-long sum whose first half is the first node's score against
  the first half of the attention column and whose second half is the second node's score against the second half;
  the gate that follows is the same elementwise chain on both sides.
-/
import proofs.«107547_j54185307407141_2_alg».proof.Proof.Gen.ReferenceIdeal.Read
import proofs.«107547_j54185307407141_2_alg».proof.Proof.Spec
import Idealize.ShloMosaic.Lib.Pipeline.Value
import Idealize.ShloMosaic.Lib.ValueIdx
import Idealize.ShloMosaic.PureOps.Ideal.Laws

noncomputable section

namespace Cert.ReferenceIdeal.RefMask

open Cert.ReferenceIdeal Cert.ReferenceIdeal.Gen Idealize.ShloMosaic Idealize.ShloMosaic.TcCoe Idealize.SL.Sem Idealize.ShloMosaic.StableHlo
open Idealize.ShloMosaic.ValueIdx

/-! ## The row gather at an index -/

/-- The reference's row gather read at `(e, d)`: the operand's row named by the start index `idx[e, 0]`, read as a
    signed integer and clamped into `[0, 49999]`, at column `d`. -/
theorem gather_row_apply {α : Type} (x : S50000x256.Idx → α) (idx : IVec S800000x1 32) (e : Fin 800000) (d : Fin 256) :
    Host.gather gather_S50000x256_S800000x1_S800000x256_1_0_n_n_0_1_1256 x idx (ix2 e d)
      = x (ix2 (⟨min (idx (ix2 e 0)).toInt.toNat (50000 - 1), by omega⟩ : Fin 50000) d) := by
  unfold Host.gather
  congr 1
  funext a
  refine Fin.ext ?_
  match a with
  | ⟨0, _⟩ =>
    show gather_S50000x256_S800000x1_S800000x256_1_0_n_n_0_1_1256.start (ix2 e d) idx 0
        + gather_S50000x256_S800000x1_S800000x256_1_0_n_n_0_1_1256.batchCoord (ix2 e d) 0
        + gather_S50000x256_S800000x1_S800000x256_1_0_n_n_0_1_1256.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x256_S800000x1_S800000x256_1_0_n_n_0_1_1256.startIndexMap from
      List.mem_singleton.mpr rfl)]
    have hsi : gather_S50000x256_S800000x1_S800000x256_1_0_n_n_0_1_1256.siIdx (ix2 e d)
        ⟨List.idxOf (0 : Fin 2) gather_S50000x256_S800000x1_S800000x256_1_0_n_n_0_1_1256.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h1 : gather_S50000x256_S800000x1_S800000x256_1_0_n_n_0_1_1256.start (ix2 e d) idx 1 = 0 := by
      unfold GatherDims.start
      exact dif_neg (by decide)
    have h2 : gather_S50000x256_S800000x1_S800000x256_1_0_n_n_0_1_1256.batchCoord (ix2 e d) 1 = 0 :=
      GatherDims.batchCoord_eq_zero _ _ _ List.not_mem_nil
    have h3 : gather_S50000x256_S800000x1_S800000x256_1_0_n_n_0_1_1256.offCoord (ix2 e d) 1 = d.val := by
      unfold GatherDims.offCoord
      rw [dif_pos (by decide)]
      rfl
    show gather_S50000x256_S800000x1_S800000x256_1_0_n_n_0_1_1256.start (ix2 e d) idx 1
        + gather_S50000x256_S800000x1_S800000x256_1_0_n_n_0_1_1256.batchCoord (ix2 e d) 1
        + gather_S50000x256_S800000x1_S800000x256_1_0_n_n_0_1_1256.offCoord (ix2 e d) 1 = d.val
    omega

/-! ## The joined row at an index -/

/-- A column below 128 of the joined row is the first image's. -/
theorem join_left {α : Type} (a b : S800000x128.Idx → α) (e : Fin 800000) (h : Fin 128) :
    concatenate S800000x256 1 [⟨S800000x128, a⟩, ⟨S800000x128, b⟩] concatenates_S800000x128_S800000x128_S800000x256_d1
        (ix2 e (⟨h.val, by omega⟩ : Fin 256)) = a (ix2 e h) :=
  concatenate_pair_apply_left 1 a b concatenates_S800000x128_S800000x128_S800000x256_d1 _ rfl _ (fun c => by
    match c with
    | ⟨0, _⟩ => rfl
    | ⟨1, _⟩ => rfl)

/-- A column from 128 on of the joined row is the second image's, 128 less. -/
theorem join_right {α : Type} (a b : S800000x128.Idx → α) (e : Fin 800000) (h : Fin 128) :
    concatenate S800000x256 1 [⟨S800000x128, a⟩, ⟨S800000x128, b⟩] concatenates_S800000x128_S800000x128_S800000x256_d1
        (ix2 e (⟨128 + h.val, by omega⟩ : Fin 256)) = b (ix2 e h) :=
  concatenate_pair_apply_right 1 a b concatenates_S800000x128_S800000x128_S800000x256_d1 _ rfl rfl _
    (fun c hc => by
      match c with
      | ⟨0, _⟩ => rfl
      | ⟨1, _⟩ => exact absurd rfl hc)
    (by show h.val + 128 = 128 + h.val; omega)

/-! ## A 256-long sum in two halves -/

/-- A sum over 256 columns is the sum over the first 128 plus the sum over the last 128. -/
theorem sum_halves (f : Fin 256 → EReal) :
    ∑ k : Fin 256, f k = ∑ h : Fin 128, f ⟨h.val, by omega⟩ + ∑ h : Fin 128, f ⟨128 + h.val, by omega⟩ :=
  Fin.sum_univ_add (M := EReal) (a := 128) (b := 128) f

/-- The same with the clamped start index written as the node the index word names. -/
theorem gather_row_node {α : Type} (x : S50000x256.Idx → α) (idx : IVec S800000x1 32) (e : Fin 800000) (d : Fin 256)
    (w : BitVec 32) (hw : idx (ix2 e 0) = w) :
    Host.gather gather_S50000x256_S800000x1_S800000x256_1_0_n_n_0_1_1256 x idx (ix2 e d)
      = x (ix2 (Cert.Spec.nodeIdx w) d) := by
  subst hw
  exact gather_row_apply x idx e d

/-! ## The rectified affine image of a gathered row -/

/-- The first end point's image at `(e, h)`: the rectified affine image of the feature row of the node the edge's
    (wrapped) row word names. -/
theorem image_nb (x0 : (⟨S50000x256, .f32⟩ : BufTy).Contents (Elt Ideal)) (x1 : (⟨S256x128, .f32⟩ : BufTy).Contents (Elt Ideal))
    (x2 : (⟨S128, .f32⟩ : BufTy).Contents (Elt Ideal)) (x9 : (⟨S800000, .i32⟩ : BufTy).Contents (Elt Ideal))
    (e : Fin 800000) (h : Fin 128) :
    Read.val_main_v11 (F := Ideal) x0 x1 x2 x9 (ix2 e h)
      = max ((∑ d : Fin 256, x0 (ix2 (Cert.Spec.nodeIdx (Read.val_main_v4 (F := Ideal) x9 (ix1 e))) d) * x1 (ix2 d h))
          + x2 (ix1 h)) 0 := by
  have el : ∀ k : Fin 256, Read.lidx_main_v7 (ix2 e h) k = ix2 e k := fun k =>
    funext fun a => by match a with | ⟨0, _⟩ => rfl | ⟨1, _⟩ => rfl
  have er : ∀ k : Fin 256, Read.ridx_main_v7 (ix2 e h) k = ix2 k h := fun k =>
    funext fun a => by match a with | ⟨0, _⟩ => rfl | ⟨1, _⟩ => rfl
  have eb : Read.idx_main_v8 (Read.idx_main_v9 (ix2 e h)) = ix1 h :=
    funext fun a => by match a with | ⟨0, _⟩ => rfl
  have e5 : Read.idx_main_v5 (ix2 e (0 : Fin 1)) = ix1 e :=
    funext fun a => by match a with | ⟨0, _⟩ => rfl
  have hw : Read.val_main_v5 (F := Ideal) x9 (ix2 e (0 : Fin 1)) = Read.val_main_v4 (F := Ideal) x9 (ix1 e) := by
    rw [Read.val_main_v5_apply, e5]
  rw [Read.val_main_v11_apply, Read.val_main_v10_apply, Read.val_main_v7_apply, Read.val_main_v9_apply,
    Read.val_main_v8_apply, Read.val_main_call0_v0_apply, Read.val_main_call0_cst_apply, eb]
  simp only [el, er, Ideal.maximumf_def, Ideal.addf_def, Ideal.ofBits_def, Ideal.ofBits_zero_f32]
  refine congrArg (fun s => max (s + x2 (ix1 h)) 0) (Finset.sum_congr rfl fun d _ => ?_)
  unfold Read.val_main_v6
  rw [gather_row_node x0 _ e d _ hw]

/-- The second end point's image at `(e, h)`: the same for the column word and the second affine map. -/
theorem image_self (x0 : (⟨S50000x256, .f32⟩ : BufTy).Contents (Elt Ideal)) (x3 : (⟨S256x128, .f32⟩ : BufTy).Contents (Elt Ideal))
    (x4 : (⟨S128, .f32⟩ : BufTy).Contents (Elt Ideal)) (x10 : (⟨S800000, .i32⟩ : BufTy).Contents (Elt Ideal))
    (e : Fin 800000) (h : Fin 128) :
    Read.val_main_v23 (F := Ideal) x0 x3 x4 x10 (ix2 e h)
      = max ((∑ d : Fin 256, x0 (ix2 (Cert.Spec.nodeIdx (Read.val_main_v16 (F := Ideal) x10 (ix1 e))) d) * x3 (ix2 d h))
          + x4 (ix1 h)) 0 := by
  have el : ∀ k : Fin 256, Read.lidx_main_v19 (ix2 e h) k = ix2 e k := fun k =>
    funext fun a => by match a with | ⟨0, _⟩ => rfl | ⟨1, _⟩ => rfl
  have er : ∀ k : Fin 256, Read.ridx_main_v19 (ix2 e h) k = ix2 k h := fun k =>
    funext fun a => by match a with | ⟨0, _⟩ => rfl | ⟨1, _⟩ => rfl
  have eb : Read.idx_main_v20 (Read.idx_main_v21 (ix2 e h)) = ix1 h :=
    funext fun a => by match a with | ⟨0, _⟩ => rfl
  have e17 : Read.idx_main_v17 (ix2 e (0 : Fin 1)) = ix1 e :=
    funext fun a => by match a with | ⟨0, _⟩ => rfl
  have hw : Read.val_main_v17 (F := Ideal) x10 (ix2 e (0 : Fin 1)) = Read.val_main_v16 (F := Ideal) x10 (ix1 e) := by
    rw [Read.val_main_v17_apply, e17]
  rw [Read.val_main_v23_apply, Read.val_main_v22_apply, Read.val_main_v19_apply, Read.val_main_v21_apply,
    Read.val_main_v20_apply, Read.val_main_call1_v0_apply, Read.val_main_call1_cst_apply, eb]
  simp only [el, er, Ideal.maximumf_def, Ideal.addf_def, Ideal.ofBits_def, Ideal.ofBits_zero_f32]
  refine congrArg (fun s => max (s + x4 (ix1 h)) 0) (Finset.sum_congr rfl fun d _ => ?_)
  unfold Read.val_main_v18
  rw [gather_row_node x0 _ e d _ hw]

/-! ## The logit -/

/-- The reference's logit at an edge is the specification's: the joined row's projection onto the attention column,
    split at column 128, is the sum of the two end points' scores. -/
theorem logit_eq (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S256x1, .f32⟩ : BufTy).Contents (Elt Ideal))
    (x6 : (⟨S1, .f32⟩ : BufTy).Contents (Elt Ideal)) (x9 x10 : (⟨S800000, .i32⟩ : BufTy).Contents (Elt Ideal)) (e : Fin 800000) :
    Read.val_main_v28 (F := Ideal) x0 x1 x2 x3 x4 x5 x6 x9 x10 (ix2 e (0 : Fin 1))
      = Cert.Spec.logit x0 x1 x2 x3 x4 x5 x6 (Read.val_main_v4 (F := Ideal) x9) (Read.val_main_v16 (F := Ideal) x10) e := by
  have el : ∀ k : Fin 256, Read.lidx_main_v25 (ix2 e (0 : Fin 1)) k = ix2 e k := fun k =>
    funext fun a => by match a with | ⟨0, _⟩ => rfl | ⟨1, _⟩ => rfl
  have er : ∀ k : Fin 256, Read.ridx_main_v25 (ix2 e (0 : Fin 1)) k = ix2 k (0 : Fin 1) := fun k =>
    funext fun a => by match a with | ⟨0, _⟩ => rfl | ⟨1, _⟩ => rfl
  have eb : Read.idx_main_v26 (Read.idx_main_v27 (ix2 e (0 : Fin 1))) = ix1 (0 : Fin 1) :=
    funext fun a => by match a with | ⟨0, _⟩ => rfl
  rw [Read.val_main_v28_apply, Read.val_main_v27_apply, Read.val_main_v26_apply, Read.val_main_v25_apply, eb]
  simp only [el, er, Ideal.addf_def]
  rw [sum_halves]
  unfold Read.val_main_v24 Cert.Spec.logit Cert.Spec.score Cert.Spec.attLo Cert.Spec.attHi
  simp only [join_left, join_right, image_nb, image_self]

/-! ## The mask -/

/-- The reference's edge mask is the specification's mask at the wrapped index words. -/
theorem mask_eq (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S256x1, .f32⟩ : BufTy).Contents (Elt Ideal))
    (x6 : (⟨S1, .f32⟩ : BufTy).Contents (Elt Ideal)) (x8 : (⟨S800000x1, .f32⟩ : BufTy).Contents (Elt Ideal))
    (x9 x10 : (⟨S800000, .i32⟩ : BufTy).Contents (Elt Ideal)) :
    Read.val_main_v48 (F := Ideal) x0 x1 x2 x3 x4 x5 x6 x8 x9 x10
      = Cert.Spec.mask x0 x1 x2 x3 x4 x5 x6 x8 (Read.val_main_v4 (F := Ideal) x9) (Read.val_main_v16 (F := Ideal) x10) := by
  funext i
  obtain ⟨e, rfl⟩ : ∃ e : Fin 800000, i = ix1 e := ⟨i 0, eq_ix1 i⟩
  have e48 : Read.idx_main_v48 (ix1 e) = ix2 e (0 : Fin 1) :=
    funext fun a => Fin.ext (by
      match a with
      | ⟨0, _⟩ => exact Nat.div_one _
      | ⟨1, _⟩ => rfl)
  rw [Read.val_main_v48_apply, e48, Read.val_main_v47_apply, Read.val_main_call2_v4_apply, Read.val_main_call2_v3_apply,
    Read.val_main_cst_9_apply, Read.val_main_call2_v2_apply, Read.val_main_call2_v1_apply, Read.val_main_call2_v0_apply,
    Read.val_main_cst_8_apply, Read.val_main_v46_apply, Read.val_main_v44_apply, Read.val_main_v45_apply,
    Read.val_main_cst_7_apply, Read.val_main_v42_apply, Read.val_main_v43_apply, Read.val_main_cst_6_apply,
    Read.val_main_v41_apply, Read.val_main_cst_5_apply, Read.val_main_v40_apply, Read.val_main_v39_apply,
    Read.val_main_cst_4_apply, Read.val_main_v38_apply, Read.val_main_v37_apply, Read.val_main_v36_apply,
    Read.val_main_v35_apply, Read.val_main_v31_apply, Read.val_main_v34_apply, Read.val_main_v33_apply,
    Read.val_main_v32_apply, Read.val_main_cst_3_apply, Read.val_main_v30_apply, Read.val_main_v29_apply,
    Read.val_main_cst_apply, logit_eq]
  rfl

end Cert.ReferenceIdeal.RefMask

end
-- ==== Proof.RefValue.lean ====
/-
  The value of the idealized reference program, in the kernel program's words.

  From the masked edge values on, the reference runs the same operations as the kernel program, over shapes and
  dimension records that are the same literals under another name; and its wrapped index words are the kernel
  program's.  So its result is `postK` of its own mask, which is the specification's.
-/
import proofs.«107547_j54185307407141_2_alg».proof.Proof.RefMask
import proofs.«107547_j54185307407141_2_alg».proof.Proof.KernelIdealTail

set_option maxRecDepth 16384

noncomputable section

namespace Cert.ReferenceIdeal.RefValue

open Idealize.ShloMosaic Cert.ReferenceIdeal

/-- The reference's result is `postK` of the specification's mask at the wrapped index words. -/
theorem result_eq (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S256x1, .f32⟩ : BufTy).Contents (Elt Ideal))
    (x6 : (⟨S1, .f32⟩ : BufTy).Contents (Elt Ideal)) (x7 : (⟨S800000, .f32⟩ : BufTy).Contents (Elt Ideal))
    (x8 : (⟨S800000x1, .f32⟩ : BufTy).Contents (Elt Ideal)) (x9 x10 : (⟨S800000, .i32⟩ : BufTy).Contents (Elt Ideal)) :
    Read.val_main_v74 (F := Ideal) x0 x1 x2 x3 x4 x5 x6 x7 x8 x9 x10
      = Cert.KernelIdeal.Tail.postK (Cert.Spec.mask x0 x1 x2 x3 x4 x5 x6 x8 (Cert.KernelIdeal.Tail.wrap x9) (Cert.KernelIdeal.Tail.wrap x10)) x7 x9 x10 := by
  have hpost : Read.val_main_v74 (F := Ideal) x0 x1 x2 x3 x4 x5 x6 x7 x8 x9 x10
      = Cert.KernelIdeal.Tail.postK (Read.val_main_v48 (F := Ideal) x0 x1 x2 x3 x4 x5 x6 x8 x9 x10) x7 x9 x10 := rfl
  have h4 : Read.val_main_v4 (F := Ideal) x9 = Cert.KernelIdeal.Tail.wrap x9 := rfl
  have h16 : Read.val_main_v16 (F := Ideal) x10 = Cert.KernelIdeal.Tail.wrap x10 := rfl
  rw [hpost, Cert.ReferenceIdeal.RefMask.mask_eq, h4, h16]

end Cert.ReferenceIdeal.RefValue

end
-- ==== Proof.lean ====
/-
  The certificate: a graph-attention edge mask with degree normalisation, computed two ways.

  The kernel program projects every node ONCE — a Pallas kernel over 49 blocks of 1024 feature rows computes, per
  node, the projection onto each half of the attention column of the rectified affine image of its feature row —
  and then, per edge, gathers the two scalars at the edge's end points.  The reference gathers the two feature ROWS
  per edge, forms the two rectified affine images per edge, concatenates them and multiplies by the whole attention
  column.  Over the extended reals the two logits are the same sum: a gather commutes with a function applied row
  by row, and a sum over the 256 concatenated columns is the sum over the first 128 plus the sum over the last 128
  (addition of extended reals is associative and commutative, so no finiteness is used).  From the logit on, both
  programs apply the same gate and the same degree normalisation to the same arguments.

  The three frames: each kernel program runs as its host operations before the region, the region's 49 points
  (the body's triple at a generic point) and its host operations after it, none of which writes an argument array;
  the reference's run is its generated one.  The idealization rewrote nothing, so `preserves` is trivial.
-/
import proofs.«107547_j54185307407141_2_alg».proof.Defs
import proofs.«107547_j54185307407141_2_alg».proof.Proof.Gen.Kernel
import proofs.«107547_j54185307407141_2_alg».proof.Proof.Gen.Kernel.Skeleton
import proofs.«107547_j54185307407141_2_alg».proof.Proof.Gen.Kernel.Launch
import proofs.«107547_j54185307407141_2_alg».proof.Proof.Gen.Kernel.Points
import proofs.«107547_j54185307407141_2_alg».proof.Proof.Gen.KernelIdeal
import proofs.«107547_j54185307407141_2_alg».proof.Proof.Gen.KernelIdeal.Skeleton
import proofs.«107547_j54185307407141_2_alg».proof.Proof.Gen.KernelIdeal.Launch
import proofs.«107547_j54185307407141_2_alg».proof.Proof.Gen.KernelIdeal.Points
import proofs.«107547_j54185307407141_2_alg».proof.Proof.Gen.ReferenceIdeal
import proofs.«107547_j54185307407141_2_alg».proof.Proof.Gen.Pre_finite_inputs
import proofs.«107547_j54185307407141_2_alg».proof.Proof.Gen.ReferenceIdeal.Run
import proofs.«107547_j54185307407141_2_alg».proof.Proof.Gen.ReferenceIdeal.Read
import proofs.«107547_j54185307407141_2_alg».proof.Proof.KernelFrame
import proofs.«107547_j54185307407141_2_alg».proof.Proof.KernelIdealValue
import proofs.«107547_j54185307407141_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ =>
  (θ_run Cert.Kernel.defs _ _).mono (fun _ h c => (h c).2) (Cert.Kernel.Frame.run_value (F := Bits) m ρ)

/-- So does the idealized kernel program. -/
theorem frame_ki : Cert.frame_KernelIdeal := fun m ρ _ =>
  (θ_run Cert.KernelIdeal.defs _ _).mono (fun _ h c => (h c).2) (Cert.KernelIdeal.Frame.run_value (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the same function of the (agreeing) arguments: everything after the mask applied
    to the specification's mask. -/
theorem algebraic : Cert.algebraic_KernelIdeal_ReferenceIdeal := by
  intro m ρ m' ρ' _ hagree
  refine ⟨fun c => Cert.KernelIdeal.KValue.value m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v74_eq, h0, h1, h2, h3, h4, h5, h6, h7, h8, h9, h10]
  exact Cert.ReferenceIdeal.RefValue.result_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
